-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v400) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S8x8192x2048 : Shape := ⟨3, ![8, 8192, 2048]⟩
abbrev S8x8192 : Shape := ⟨2, ![8, 8192]⟩
abbrev S8x1x2048 : Shape := ⟨3, ![8, 1, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_arg4 : FVec F S8x8192 .f32) (main_arg5 : FVec F S8x1x2048 .f32) (main_arg6 : FVec F S8x1x2048 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8x8192 .f32 := Host.absf main_arg4
  let main_cst_6 : FVec F S_ .f32 := constant S_ .f32 0x7F800000#32
  let main_v20 : FVec F S8x8192 .f32 := broadcastInDim S8x8192 ![] bcast_S_S8x8192 main_cst_6
  let main_v21 : IVec S8x8192 1 := cmpf .olt main_v19 main_v20
  let main_c_7 : IVec S_ 1 := constantI S_ 1 1#1
  let main_v22 : IVec S_ 1 := (fun x v => Host.reduce IntOp.andi x v reducesTo_S8x8192_S_d0_1 h_S_) main_v21 main_c_7
  let main_v23 : IVec S_ 1 := andi main_v18 main_v22
  let main_v24 : FVec F S8x1x2048 .f32 := Host.absf main_arg5
  let main_cst_8 : FVec F S_ .f32 := constant S_ .f32 0x7F800000#32
  let main_v25 : FVec F S8x1x2048 .f32 := broadcastInDim S8x1x2048 ![] bcast_S_S8x1x2048 main_cst_8
  let main_v26 : IVec S8x1x2048 1 := cmpf .olt main_v24 main_v25
  let main_c_9 : IVec S_ 1 := constantI S_ 1 1#1
  let main_v27 : IVec S_ 1 := (fun x v => Host.reduce IntOp.andi x v reducesTo_S8x1x2048_S_d0_1_2 h_S_) main_v26 main_c_9
  let main_v28 : IVec S_ 1 := andi main_v23 main_v27
  let main_v29 : FVec F S8x1x2048 .f32 := Host.absf main_arg6
  let main_cst_10 : FVec F S_ .f32 := constant S_ .f32 0x7F800000#32
  let main_v30 : FVec F S8x1x2048 .f32 := broadcastInDim S8x1x2048 ![] bcast_S_S8x1x2048 main_cst_10
  let main_v31 : IVec S8x1x2048 1 := cmpf .olt main_v29 main_v30
  let main_c_11 : IVec S_ 1 := constantI S_ 1 1#1
  let main_v32 : IVec S_ 1 := (fun x v => Host.reduce IntOp.andi x v reducesTo_S8x1x2048_S_d0_1_2 h_S_) main_v31 main_c_11
  let main_v33 : IVec S_ 1 := andi main_v28 main_v32
  main_v33

def fn {F : FTy → Type} [FloatOps F] (main_arg0 : FVec F S2048 .f32) (main_arg1 : FVec F S8x8192x2048 .f32) (main_arg2 : FVec F S8x8192x2048 .f32) (main_arg3 : FVec F S8x8192 .f32) (main_arg4 : FVec F S8x8192 .f32) (main_arg5 : FVec F S8x1x2048 .f32) (main_arg6 : FVec F S8x1x2048 .f32) : IVec S_ 1 :=
  let main_v0 : FVec F S2048 .f32 := Host.absf main_arg0
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x8192x2048 .f32 := Host.absf main_arg2
  let main_cst_2 : FVec F S_ .f32 := constant S_ .f32 0x7F800000#32
  let main_v10 : FVec F S8x8192x2048 .f32 := broadcastInDim S8x8192x2048 ![] bcast_S_S8x8192x2048 main_cst_2
  let main_v11 : IVec S8x8192x2048 1 := cmpf .olt main_v9 main_v10
  let main_c_3 : IVec S_ 1 := constantI S_ 1 1#1
  let main_v12 : IVec S_ 1 := (fun x v => Host.reduce IntOp.andi x v reducesTo_S8x8192x2048_S_d0_1_2 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg4 main_arg5 main_arg6 main_v13 main_v16
-- ==== Kernel.lean ====
abbrev S2048 : Shape := ⟨1, ![2048]⟩
abbrev S8x8192x2048 : Shape := ⟨3, ![8, 8192, 2048]⟩
abbrev S8x8192 : Shape := ⟨2, ![8, 8192]⟩
abbrev S8x1x2048 : Shape := ⟨3, ![8, 1, 2048]⟩
abbrev S1x2048 : Shape := ⟨2, ![1, 2048]⟩
abbrev S8x1x8192 : Shape := ⟨3, ![8, 1, 8192]⟩
abbrev S1x8192x256 : Shape := ⟨3, ![1, 8192, 256]⟩
abbrev S1x1x8192 : Shape := ⟨3, ![1, 1, 8192]⟩
abbrev S1x1x256 : Shape := ⟨3, ![1, 1, 256]⟩
abbrev S1x1x2048 : Shape := ⟨3, ![1, 1, 2048]⟩
abbrev S1x8192 : Shape := ⟨2, ![1, 8192]⟩
abbrev S1x256 : Shape := ⟨2, ![1, 256]⟩
abbrev S8192x256 : Shape := ⟨2, ![8192, 256]⟩

abbrev nBuf : Space → Nat
  | .hbm => 12
  | .vmem => 16
  | .smem => 0
  | _ => 0

abbrev bufTy : (tb : Table) → Fin (tcTables nBuf tb) → BufTy
  | .hbm, ⟨0, _⟩ => ⟨S2048, .f32⟩
  | .hbm, ⟨1, _⟩ => ⟨S8x8192x2048, .f32⟩
  | .hbm, ⟨2, _⟩ => ⟨S8x8192x2048, .f32⟩
  | .hbm, ⟨3, _⟩ => ⟨S8x8192, .f32⟩
  | .hbm, ⟨4, _⟩ => ⟨S8x8192, .f32⟩
  | .hbm, ⟨5, _⟩ => ⟨S8x1x2048, .f32⟩
  | .hbm, ⟨6, _⟩ => ⟨S8x1x2048, .f32⟩
  | .hbm, ⟨7, _⟩ => ⟨S1x2048, .f32⟩
  | .hbm, ⟨8, _⟩ => ⟨S8x1x8192, .f32⟩
  | .hbm, ⟨9, _⟩ => ⟨S8x1x8192, .f32⟩
  | .hbm, ⟨10, _⟩ => ⟨S1x2048, .f32⟩
  | .hbm, ⟨11, _⟩ => ⟨S1x1x2048, .f32⟩
  | .local _ .vmem, ⟨0, _⟩ => ⟨S1x2048, .f32⟩
  | .local _ .vmem, ⟨1, _⟩ => ⟨S1x8192x256, .f32⟩
  | .local _ .vmem, ⟨2, _⟩ => ⟨S1x8192x256, .f32⟩
  | .local _ .vmem, ⟨3, _⟩ => ⟨S1x8192x256, .f32⟩
  | .local _ .vmem, ⟨4, _⟩ => ⟨S1x8192x256, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | .local _ .vmem, ⟨8, _⟩ => ⟨S1x1x8192, .f32⟩
  | .local _ .vmem, ⟨9, _⟩ => ⟨S1x1x256, .f32⟩
  | .local _ .vmem, ⟨10, _⟩ => ⟨S1x1x256, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S1x2048, .f32⟩
  | .local _ .vmem, ⟨15, _⟩ => ⟨S1x8192, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v8 : BitVec 32 := Scalar.muli arg1 c256_i32
  v8
def k0_off1 (i : grid0.Coords) : Fin 2 → Nat :=
  let c0 : Index := 0#32
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  ![0, v10.toNat]
def k0_cond3 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  shapeCasts_S2048_S1x2048 : S2048.ShapeCasts S1x2048
  shapeCasts_S8x8192_S8x1x8192 : S8x8192.ShapeCasts S8x1x8192
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  h_S1x256 : 0 < S1x256.numel
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  bitsLt_bf16_f32 : FTy.bits .bf16 < FTy.bits .f32
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  slices_S1x8192_o0_0_S1x2048 : S1x8192.Slices ![0, 0] S1x2048
  slices_S1x8192_o0_2048_S1x2048 : S1x8192.Slices ![0, 2048] S1x2048
  slices_S1x8192_o0_4096_S1x2048 : S1x8192.Slices ![0, 4096] S1x2048
  slices_S1x8192_o0_6144_S1x2048 : S1x8192.Slices ![0, 6144] S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  dot_S1x256_S8192x256_S1x8192_1_1_0_0_n_n_wf : DotDims.WF S1x256 S8192x256 S1x8192 [1] [1] [0] [0] [] []
  hrank0 : 0 < grid0.rank
  k0_mult1_dvd : ∀ i : grid0.Coords, 256 ∣ (k0_mult1 i).toNat
  k0_off1_inb : ∀ i : grid0.Coords, ∀ a, (k0_off1 i) a + S1x256.size a ≤ S1x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x256.size a ≤ S8x8192x2048.size a
  hwx0_1 : ∀ i : grid0.Coords, EltTy.bits .f32 = 32 ∨ (Rect.block (s := S8x8192x2048) S1x8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x256.size a ≤ S8x8192x2048.size a
  hwx0_2 : ∀ i : grid0.Coords, EltTy.bits .f32 = 32 ∨ (Rect.block (s := S8x8192x2048) S1x8192x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S8x1x8192.size a
  hwx0_3 : ∀ i : grid0.Coords, EltTy.bits .f32 = 32 ∨ (Rect.block (s := S8x1x8192) S1x1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S8x1x8192.size a
  hwx0_4 : ∀ i : grid0.Coords, EltTy.bits .f32 = 32 ∨ (Rect.block (s := S8x1x8192) S1x1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S8x1x2048.size a
  hwx0_5 : ∀ i : grid0.Coords, EltTy.bits .f32 = 32 ∨ (Rect.block (s := S8x1x2048) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S8x1x2048.size a
  hwx0_6 : ∀ i : grid0.Coords, EltTy.bits .f32 = 32 ∨ (Rect.block (s := S8x1x2048) S1x1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)

variable [Facts₀]

def dot_S1x256_S8192x256_S1x8192_1_1_0_0_n_n : DotDims S1x256 S8192x256 S1x8192 where
  lhsContracting := [1]
  rhsContracting := [1]
  lhsNonContracting := [0]
  rhsNonContracting := [0]
  lhsBatch := []
  rhsBatch := []
  wf := dot_S1x256_S8192x256_S1x8192_1_1_0_0_n_n_wf

abbrev win0_0 : Pipeline.Window sig grid0 :=
  Pipeline.Window.ofSpec (Memref.whole main_v0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S2048 : Shape := ⟨1, ![2048]⟩
abbrev S8x8192x2048 : Shape := ⟨3, ![8, 8192, 2048]⟩
abbrev S8x8192 : Shape := ⟨2, ![8, 8192]⟩
abbrev S8x1x2048 : Shape := ⟨3, ![8, 1, 2048]⟩
abbrev S1x2048 : Shape := ⟨2, ![1, 2048]⟩
abbrev S1x1x2048 : Shape := ⟨3, ![1, 1, 2048]⟩
abbrev S1x8192x2048 : Shape := ⟨3, ![1, 8192, 2048]⟩
abbrev S8192x2048 : Shape := ⟨2, ![8192, 2048]⟩
abbrev S1x8192 : Shape := ⟨2, ![1, 8192]⟩
abbrev S8192 : Shape := ⟨1, ![8192]⟩
abbrev S2048x8192 : Shape := ⟨2, ![2048, 8192]⟩
abbrev S_ : Shape := ⟨0, ![]⟩

abbrev nBuf : Space → Nat
  | .hbm => 456
  | .vmem => 0
  | .smem => 0
  | _ => 0

abbrev hbmTy0_0 (i : Nat) : BufTy := match i % 128 with
  | 0 => ⟨S2048, .f32⟩
  | 1 => ⟨S8x8192x2048, .f32⟩
  | 2 => ⟨S8x8192x2048, .f32⟩
  | 3 => ⟨S8x8192, .f32⟩
  | 4 => ⟨S8x8192, .f32⟩
  | 5 => ⟨S8x1x2048, .f32⟩
  | 6 => ⟨S8x1x2048, .f32⟩
  | 7 => ⟨S1x2048, .f32⟩
  | 8 => ⟨S1x1x2048, .f32⟩
  | 9 => ⟨S1x2048, .f32⟩
  | 10 => ⟨S1x1x2048, .f32⟩
  | 11 => ⟨S1x2048, .f32⟩
  | 12 => ⟨S1x8192x2048, .f32⟩
  | 13 => ⟨S8192x2048, .f32⟩
  | 14 => ⟨S1x8192x2048, .f32⟩
  | 15 => ⟨S8192x2048, .f32⟩
  | 16 => ⟨S1x8192, .f32⟩
  | 17 => ⟨S8192, .f32⟩
  | 18 => ⟨S1x8192, .f32⟩
  | 19 => ⟨S8192, .f32⟩
  | 20 => ⟨S2048x8192, .f32⟩
  | 21 => ⟨S1x8192, .f32⟩
  | 22 => ⟨S1x8192, .f32⟩
  | 23 => ⟨S1x8192, .f32⟩
  | 24 => ⟨S2048x8192, .f32⟩
  | 25 => ⟨S1x8192, .f32⟩
  | 26 => ⟨S1x8192, .f32⟩
  | 27 => ⟨S1x8192, .f32⟩
  | 28 => ⟨S1x8192, .f32⟩
  | 29 => ⟨S1x2048, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S_, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S1x2048, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x1x2048, .f32⟩
  | 65 => ⟨S1x2048, .f32⟩
  | 66 => ⟨S1x1x2048, .f32⟩
  | 67 => ⟨S1x2048, .f32⟩
  | 68 => ⟨S1x8192x2048, .f32⟩
  | 69 => ⟨S8192x2048, .f32⟩
  | 70 => ⟨S1x8192x2048, .f32⟩
  | 71 => ⟨S8192x2048, .f32⟩
  | 72 => ⟨S1x8192, .f32⟩
  | 73 => ⟨S8192, .f32⟩
  | 74 => ⟨S1x8192, .f32⟩
  | 75 => ⟨S8192, .f32⟩
  | 76 => ⟨S2048x8192, .f32⟩
  | 77 => ⟨S1x8192, .f32⟩
  | 78 => ⟨S1x8192, .f32⟩
  | 79 => ⟨S1x8192, .f32⟩
  | 80 => ⟨S2048x8192, .f32⟩
  | 81 => ⟨S1x8192, .f32⟩
  | 82 => ⟨S1x8192, .f32⟩
  | 83 => ⟨S1x8192, .f32⟩
  | 84 => ⟨S1x8192, .f32⟩
  | 85 => ⟨S1x2048, .f32⟩
  | 86 => ⟨S1x2048, .f32⟩
  | 87 => ⟨S1x2048, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S_, .f32⟩
  | 95 => ⟨S1x2048, .f32⟩
  | 96 => ⟨S1x2048, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S1x2048, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S_, .f32⟩
  | 115 => ⟨S1x2048, .f32⟩
  | 116 => ⟨S1x2048, .f32⟩
  | 117 => ⟨S1x2048, .f32⟩
  | 118 => ⟨S1x2048, .f32⟩
  | 119 => ⟨S1x2048, .f32⟩
  | 120 => ⟨S1x1x2048, .f32⟩
  | 121 => ⟨S1x2048, .f32⟩
  | 122 => ⟨S1x1x2048, .f32⟩
  | 123 => ⟨S1x2048, .f32⟩
  | 124 => ⟨S1x8192x2048, .f32⟩
  | 125 => ⟨S8192x2048, .f32⟩
  | 126 => ⟨S1x8192x2048, .f32⟩
  | 127 => ⟨S8192x2048, .f32⟩
  | _ => ⟨S2048, .f32⟩

abbrev hbmTy0_1 (i : Nat) : BufTy := match i % 128 with
  | 0 => ⟨S1x8192, .f32⟩
  | 1 => ⟨S8192, .f32⟩
  | 2 => ⟨S1x8192, .f32⟩
  | 3 => ⟨S8192, .f32⟩
  | 4 => ⟨S2048x8192, .f32⟩
  | 5 => ⟨S1x8192, .f32⟩
  | 6 => ⟨S1x8192, .f32⟩
  | 7 => ⟨S1x8192, .f32⟩
  | 8 => ⟨S2048x8192, .f32⟩
  | 9 => ⟨S1x8192, .f32⟩
  | 10 => ⟨S1x8192, .f32⟩
  | 11 => ⟨S1x8192, .f32⟩
  | 12 => ⟨S1x8192, .f32⟩
  | 13 => ⟨S1x2048, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S_, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S1x2048, .f32⟩
  | 27 => ⟨S1x2048, .f32⟩
  | 28 => ⟨S_, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S_, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x1x2048, .f32⟩
  | 49 => ⟨S1x2048, .f32⟩
  | 50 => ⟨S1x1x2048, .f32⟩
  | 51 => ⟨S1x2048, .f32⟩
  | 52 => ⟨S1x8192x2048, .f32⟩
  | 53 => ⟨S8192x2048, .f32⟩
  | 54 => ⟨S1x8192x2048, .f32⟩
  | 55 => ⟨S8192x2048, .f32⟩
  | 56 => ⟨S1x8192, .f32⟩
  | 57 => ⟨S8192, .f32⟩
  | 58 => ⟨S1x8192, .f32⟩
  | 59 => ⟨S8192, .f32⟩
  | 60 => ⟨S2048x8192, .f32⟩
  | 61 => ⟨S1x8192, .f32⟩
  | 62 => ⟨S1x8192, .f32⟩
  | 63 => ⟨S1x8192, .f32⟩
  | 64 => ⟨S2048x8192, .f32⟩
  | 65 => ⟨S1x8192, .f32⟩
  | 66 => ⟨S1x8192, .f32⟩
  | 67 => ⟨S1x8192, .f32⟩
  | 68 => ⟨S1x8192, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S1x1x2048, .f32⟩
  | 105 => ⟨S1x2048, .f32⟩
  | 106 => ⟨S1x1x2048, .f32⟩
  | 107 => ⟨S1x2048, .f32⟩
  | 108 => ⟨S1x8192x2048, .f32⟩
  | 109 => ⟨S8192x2048, .f32⟩
  | 110 => ⟨S1x8192x2048, .f32⟩
  | 111 => ⟨S8192x2048, .f32⟩
  | 112 => ⟨S1x8192, .f32⟩
  | 113 => ⟨S8192, .f32⟩
  | 114 => ⟨S1x8192, .f32⟩
  | 115 => ⟨S8192, .f32⟩
  | 116 => ⟨S2048x8192, .f32⟩
  | 117 => ⟨S1x8192, .f32⟩
  | 118 => ⟨S1x8192, .f32⟩
  | 119 => ⟨S1x8192, .f32⟩
  | 120 => ⟨S2048x8192, .f32⟩
  | 121 => ⟨S1x8192, .f32⟩
  | 122 => ⟨S1x8192, .f32⟩
  | 123 => ⟨S1x8192, .f32⟩
  | 124 => ⟨S1x8192, .f32⟩
  | 125 => ⟨S1x2048, .f32⟩
  | 126 => ⟨S1x2048, .f32⟩
  | 127 => ⟨S1x2048, .f32⟩
  | _ => ⟨S2048, .f32⟩

abbrev hbmTy0_2 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S_, .f32⟩
  | 7 => ⟨S1x2048, .f32⟩
  | 8 => ⟨S1x2048, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S_, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S1x2048, .f32⟩
  | 31 => ⟨S1x2048, .f32⟩
  | 32 => ⟨S1x1x2048, .f32⟩
  | 33 => ⟨S1x2048, .f32⟩
  | 34 => ⟨S1x1x2048, .f32⟩
  | 35 => ⟨S1x2048, .f32⟩
  | 36 => ⟨S1x8192x2048, .f32⟩
  | 37 => ⟨S8192x2048, .f32⟩
  | 38 => ⟨S1x8192x2048, .f32⟩
  | 39 => ⟨S8192x2048, .f32⟩
  | 40 => ⟨S1x8192, .f32⟩
  | 41 => ⟨S8192, .f32⟩
  | 42 => ⟨S1x8192, .f32⟩
  | 43 => ⟨S8192, .f32⟩
  | 44 => ⟨S2048x8192, .f32⟩
  | 45 => ⟨S1x8192, .f32⟩
  | 46 => ⟨S1x8192, .f32⟩
  | 47 => ⟨S1x8192, .f32⟩
  | 48 => ⟨S2048x8192, .f32⟩
  | 49 => ⟨S1x8192, .f32⟩
  | 50 => ⟨S1x8192, .f32⟩
  | 51 => ⟨S1x8192, .f32⟩
  | 52 => ⟨S1x8192, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S_, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x1x2048, .f32⟩
  | 89 => ⟨S1x2048, .f32⟩
  | 90 => ⟨S1x1x2048, .f32⟩
  | 91 => ⟨S1x2048, .f32⟩
  | 92 => ⟨S1x8192x2048, .f32⟩
  | 93 => ⟨S8192x2048, .f32⟩
  | 94 => ⟨S1x8192x2048, .f32⟩
  | 95 => ⟨S8192x2048, .f32⟩
  | 96 => ⟨S1x8192, .f32⟩
  | 97 => ⟨S8192, .f32⟩
  | 98 => ⟨S1x8192, .f32⟩
  | 99 => ⟨S8192, .f32⟩
  | 100 => ⟨S2048x8192, .f32⟩
  | 101 => ⟨S1x8192, .f32⟩
  | 102 => ⟨S1x8192, .f32⟩
  | 103 => ⟨S1x8192, .f32⟩
  | 104 => ⟨S2048x8192, .f32⟩
  | 105 => ⟨S1x8192, .f32⟩
  | 106 => ⟨S1x8192, .f32⟩
  | 107 => ⟨S1x8192, .f32⟩
  | 108 => ⟨S1x8192, .f32⟩
  | 109 => ⟨S1x2048, .f32⟩
  | 110 => ⟨S1x2048, .f32⟩
  | 111 => ⟨S1x2048, .f32⟩
  | 112 => ⟨S1x2048, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S_, .f32⟩
  | _ => ⟨S2048, .f32⟩

abbrev hbmTy0_3 (i : Nat) : BufTy := match i % 128 with
  | 0 => ⟨S1x2048, .f32⟩
  | 1 => ⟨S1x2048, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S_, .f32⟩
  | 8 => ⟨S1x2048, .f32⟩
  | 9 => ⟨S1x2048, .f32⟩
  | 10 => ⟨S_, .f32⟩
  | 11 => ⟨S1x2048, .f32⟩
  | 12 => ⟨S1x2048, .f32⟩
  | 13 => ⟨S1x2048, .f32⟩
  | 14 => ⟨S1x2048, .f32⟩
  | 15 => ⟨S1x2048, .f32⟩
  | 16 => ⟨S1x1x2048, .f32⟩
  | 17 => ⟨S1x2048, .f32⟩
  | 18 => ⟨S1x1x2048, .f32⟩
  | 19 => ⟨S1x2048, .f32⟩
  | 20 => ⟨S1x8192x2048, .f32⟩
  | 21 => ⟨S8192x2048, .f32⟩
  | 22 => ⟨S1x8192x2048, .f32⟩
  | 23 => ⟨S8192x2048, .f32⟩
  | 24 => ⟨S1x8192, .f32⟩
  | 25 => ⟨S8192, .f32⟩
  | 26 => ⟨S1x8192, .f32⟩
  | 27 => ⟨S8192, .f32⟩
  | 28 => ⟨S2048x8192, .f32⟩
  | 29 => ⟨S1x8192, .f32⟩
  | 30 => ⟨S1x8192, .f32⟩
  | 31 => ⟨S1x8192, .f32⟩
  | 32 => ⟨S2048x8192, .f32⟩
  | 33 => ⟨S1x8192, .f32⟩
  | 34 => ⟨S1x8192, .f32⟩
  | 35 => ⟨S1x8192, .f32⟩
  | 36 => ⟨S1x8192, .f32⟩
  | 37 => ⟨S1x2048, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S1x2048, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S1x2048, .f32⟩
  | 71 => ⟨S1x1x2048, .f32⟩
  | _ => ⟨S2048, .f32⟩

abbrev hbmTy (i : Nat) : BufTy := match i / 128 with
  | 0 => hbmTy0_0 i
  | 1 => hbmTy0_1 i
  | 2 => hbmTy0_2 i
  | 3 => hbmTy0_3 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_5 : Ref sig .tc := ⟨.hbm, 91, rfl⟩
abbrev main_v78 : Ref sig .tc := ⟨.hbm, 92, rfl⟩
abbrev main_v79 : Ref sig .tc := ⟨.hbm, 93, rfl⟩
abbrev main_cst_6 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_7 : Ref sig .tc := ⟨.hbm, 100, rfl⟩
abbrev main_v85 : Ref sig .tc := ⟨.hbm, 101, rfl⟩
abbrev main_v86 : Ref sig .tc := ⟨.hbm, 102, rfl⟩
abbrev main_cst_8 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_11 : Ref sig .tc := ⟨.hbm, 147, rfl⟩
abbrev main_v128 : Ref sig .tc := ⟨.hbm, 148, rfl⟩
abbrev main_v129 : Ref sig .tc := ⟨.hbm, 149, rfl⟩
abbrev main_cst_12 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_13 : Ref sig .tc := ⟨.hbm, 156, rfl⟩
abbrev main_v135 : Ref sig .tc := ⟨.hbm, 157, rfl⟩
abbrev main_v136 : Ref sig .tc := ⟨.hbm, 158, rfl⟩
abbrev main_cst_14 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_cst_16 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_cst_17 : Ref sig .tc := ⟨.hbm, 203, rfl⟩
abbrev main_v178 : Ref sig .tc := ⟨.hbm, 204, rfl⟩
abbrev main_v179 : Ref sig .tc := ⟨.hbm, 205, rfl⟩
abbrev main_cst_18 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_cst_19 : Ref sig .tc := ⟨.hbm, 212, rfl⟩
abbrev main_v185 : Ref sig .tc := ⟨.hbm, 213, rfl⟩
abbrev main_v186 : Ref sig .tc := ⟨.hbm, 214, rfl⟩
abbrev main_cst_20 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_cst_21 : Ref sig .tc := ⟨.hbm, 223, rfl⟩
abbrev main_v194 : Ref sig .tc := ⟨.hbm, 224, rfl⟩
abbrev main_v195 : Ref sig .tc := ⟨.hbm, 225, rfl⟩
abbrev main_cst_22 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_cst_23 : Ref sig .tc := ⟨.hbm, 259, rfl⟩
abbrev main_v228 : Ref sig .tc := ⟨.hbm, 260, rfl⟩
abbrev main_v229 : Ref sig .tc := ⟨.hbm, 261, rfl⟩
abbrev main_cst_24 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_cst_25 : Ref sig .tc := ⟨.hbm, 268, rfl⟩
abbrev main_v235 : Ref sig .tc := ⟨.hbm, 269, rfl⟩
abbrev main_v236 : Ref sig .tc := ⟨.hbm, 270, rfl⟩
abbrev main_cst_26 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_cst_27 : Ref sig .tc := ⟨.hbm, 279, rfl⟩
abbrev main_v244 : Ref sig .tc := ⟨.hbm, 280, rfl⟩
abbrev main_v245 : Ref sig .tc := ⟨.hbm, 281, rfl⟩
abbrev main_cst_28 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_cst_29 : Ref sig .tc := ⟨.hbm, 315, rfl⟩
abbrev main_v278 : Ref sig .tc := ⟨.hbm, 316, rfl⟩
abbrev main_v279 : Ref sig .tc := ⟨.hbm, 317, rfl⟩
abbrev main_cst_30 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_cst_31 : Ref sig .tc := ⟨.hbm, 324, rfl⟩
abbrev main_v285 : Ref sig .tc := ⟨.hbm, 325, rfl⟩
abbrev main_v286 : Ref sig .tc := ⟨.hbm, 326, rfl⟩
abbrev main_cst_32 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_cst_33 : Ref sig .tc := ⟨.hbm, 335, rfl⟩
abbrev main_v294 : Ref sig .tc := ⟨.hbm, 336, rfl⟩
abbrev main_v295 : Ref sig .tc := ⟨.hbm, 337, rfl⟩
abbrev main_cst_34 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_cst_35 : Ref sig .tc := ⟨.hbm, 371, rfl⟩
abbrev main_v328 : Ref sig .tc := ⟨.hbm, 372, rfl⟩
abbrev main_v329 : Ref sig .tc := ⟨.hbm, 373, rfl⟩
abbrev main_cst_36 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_cst_37 : Ref sig .tc := ⟨.hbm, 380, rfl⟩
abbrev main_v335 : Ref sig .tc := ⟨.hbm, 381, rfl⟩
abbrev main_v336 : Ref sig .tc := ⟨.hbm, 382, rfl⟩
abbrev main_cst_38 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_cst_39 : Ref sig .tc := ⟨.hbm, 391, rfl⟩
abbrev main_v344 : Ref sig .tc := ⟨.hbm, 392, rfl⟩
abbrev main_v345 : Ref sig .tc := ⟨.hbm, 393, rfl⟩
abbrev main_cst_40 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_v351 : Ref sig .tc := ⟨.hbm, 400, rfl⟩
abbrev main_v352 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_v356 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_cst_41 : Ref sig .tc := ⟨.hbm, 427, rfl⟩
abbrev main_v378 : Ref sig .tc := ⟨.hbm, 428, rfl⟩
abbrev main_v379 : Ref sig .tc := ⟨.hbm, 429, rfl⟩
abbrev main_cst_42 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_cst_43 : Ref sig .tc := ⟨.hbm, 436, rfl⟩
abbrev main_v385 : Ref sig .tc := ⟨.hbm, 437, rfl⟩
abbrev main_v386 : Ref sig .tc := ⟨.hbm, 438, rfl⟩
abbrev main_cst_44 : Ref sig .tc := ⟨.hbm, 439, rfl⟩
abbrev main_v387 : Ref sig .tc := ⟨.hbm, 440, rfl⟩
abbrev main_v388 : Ref sig .tc := ⟨.hbm, 441, rfl⟩
abbrev main_v389 : Ref sig .tc := ⟨.hbm, 442, rfl⟩
abbrev main_v390 : Ref sig .tc := ⟨.hbm, 443, rfl⟩
abbrev main_v391 : Ref sig .tc := ⟨.hbm, 444, rfl⟩
abbrev main_v392 : Ref sig .tc := ⟨.hbm, 445, rfl⟩
abbrev main_v393 : Ref sig .tc := ⟨.hbm, 446, rfl⟩
abbrev main_cst_45 : Ref sig .tc := ⟨.hbm, 447, rfl⟩
abbrev main_v394 : Ref sig .tc := ⟨.hbm, 448, rfl⟩
abbrev main_v395 : Ref sig .tc := ⟨.hbm, 449, rfl⟩
abbrev main_cst_46 : Ref sig .tc := ⟨.hbm, 450, rfl⟩
abbrev main_v396 : Ref sig .tc := ⟨.hbm, 451, rfl⟩
abbrev main_v397 : Ref sig .tc := ⟨.hbm, 452, rfl⟩
abbrev main_v398 : Ref sig .tc := ⟨.hbm, 453, rfl⟩
abbrev main_v399 : Ref sig .tc := ⟨.hbm, 454, rfl⟩
abbrev main_v400 : Ref sig .tc := ⟨.hbm, 455, rfl⟩

abbrev nD : Nat := 1
abbrev τ : Topo := Topo.v7x

variable {F : FTy → Type} [FloatOps F]

class Facts₀ : Prop where
  shapeCasts_S2048_S1x2048 : S2048.ShapeCasts S1x2048
  slices_S8x1x2048_S1x1x2048_0_0_0 : S8x1x2048.Slices ![0, 0, 0] S1x1x2048
  shapeCasts_S1x1x2048_S1x2048 : S1x1x2048.ShapeCasts S1x2048
  slices_S8x8192x2048_S1x8192x2048_0_0_0 : S8x8192x2048.Slices ![0, 0, 0] S1x8192x2048
  shapeCasts_S1x8192x2048_S8192x2048 : S1x8192x2048.ShapeCasts S8192x2048
  slices_S8x8192_S1x8192_0_0 : S8x8192.Slices ![0, 0] S1x8192
  shapeCasts_S1x8192_S8192 : S1x8192.ShapeCasts S8192
  transposes_S8192x2048_S2048x8192_1_0 : S8192x2048.Transposes [1, 0] S2048x8192
  bcast_S8192_S1x8192_1 : S8192.BroadcastsInDim S1x8192 (![1] : Fin 1 → Fin S1x8192.rank)
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  bcast_S_S1x2048 : S_.BroadcastsInDim S1x2048 (![] : Fin 0 → Fin S1x2048.rank)
  slices_S8x1x2048_S1x1x2048_1_0_0 : S8x1x2048.Slices ![1, 0, 0] S1x1x2048
  slices_S8x8192x2048_S1x8192x2048_1_0_0 : S8x8192x2048.Slices ![1, 0, 0] S1x8192x2048
  slices_S8x8192_S1x8192_1_0 : S8x8192.Slices ![1, 0] S1x8192
  slices_S8x1x2048_S1x1x2048_2_0_0 : S8x1x2048.Slices ![2, 0, 0] S1x1x2048
  slices_S8x8192x2048_S1x8192x2048_2_0_0 : S8x8192x2048.Slices ![2, 0, 0] S1x8192x2048
  slices_S8x8192_S1x8192_2_0 : S8x8192.Slices ![2, 0] S1x8192
  slices_S8x1x2048_S1x1x2048_3_0_0 : S8x1x2048.Slices ![3, 0, 0] S1x1x2048
  slices_S8x8192x2048_S1x8192x2048_3_0_0 : S8x8192x2048.Slices ![3, 0, 0] S1x8192x2048
  slices_S8x8192_S1x8192_3_0 : S8x8192.Slices ![3, 0] S1x8192
  slices_S8x1x2048_S1x1x2048_4_0_0 : S8x1x2048.Slices ![4, 0, 0] S1x1x2048
  slices_S8x8192x2048_S1x8192x2048_4_0_0 : S8x8192x2048.Slices ![4, 0, 0] S1x8192x2048
  slices_S8x8192_S1x8192_4_0 : S8x8192.Slices ![4, 0] S1x8192
  slices_S8x1x2048_S1x1x2048_5_0_0 : S8x1x2048.Slices ![5, 0, 0] S1x1x2048
  slices_S8x8192x2048_S1x8192x2048_5_0_0 : S8x8192x2048.Slices ![5, 0, 0] S1x8192x2048
  slices_S8x8192_S1x8192_5_0 : S8x8192.Slices ![5, 0] S1x8192
  slices_S8x1x2048_S1x1x2048_6_0_0 : S8x1x2048.Slices ![6, 0, 0] S1x1x2048
  slices_S8x8192x2048_S1x8192x2048_6_0_0 : S8x8192x2048.Slices ![6, 0, 0] S1x8192x2048
  slices_S8x8192_S1x8192_6_0 : S8x8192.Slices ![6, 0] S1x8192
  slices_S8x1x2048_S1x1x2048_7_0_0 : S8x1x2048.Slices ![7, 0, 0] S1x1x2048
  slices_S8x8192x2048_S1x8192x2048_7_0_0 : S8x8192x2048.Slices ![7, 0, 0] S1x8192x2048
  slices_S8x8192_S1x8192_7_0 : S8x8192.Slices ![7, 0] S1x8192
  shapeCasts_S1x2048_S1x1x2048 : S1x2048.ShapeCasts S1x1x2048
  dot_S1x2048_S2048x8192_S1x8192_1_0_0_1_n_n_wf : DotDims.WF S1x2048 S2048x8192 S1x8192 [1] [0] [0] [1] [] []

variable [Facts₀]

def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf

class Facts : Prop extends Facts₀ where

variable [Facts]
-- ==== Proof.KernelPieces.lean ====
/-
  What one grid point's body leaves in the two carried buffers and in the output block, as values of what it loads.

  Every store of the body covers its whole buffer, so what a buffer holds after the body is the value of its last
  store, and a load of a buffer the body has just stored reads that store's value. Writing tile(X) for the 256 columns
  of the carried input row X that the point's tile names, the accumulator ends at

      update (tile X) h W U A

  (the payload of the accumulator's store) where X is the carried input as the point finds it (at the very first point:
  the stack's input, just copied in) and A the accumulator as the point finds it (at a layer's first tile: the zero
  row, just stored). On a layer's last tile the carried input is replaced by tanh of the cell's output and the output
  block receives the cell's output, both computed from the accumulator just stored.
-/
import proofs.«131363_j14688788152407_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 columns of a length-2048 row that the tile at grid coordinates `i` names. -/
abbrev tileRow (i : grid0.Coords) (X : Vec F S1x2048 .f32) : Vec F S1x256 .f32 :=
  View.ld X (Rect.unit (s := S1x2048) (k0_off1 i) S1x256.size (k0_off1_inb i))

/-- A middle tile: the accumulator found, plus this tile's share. -/
theorem acc_B (c : Dev nD) (i : grid0.Coords) (arg2 : Memref sig .tc .vmem S1x2048 .f32) (harg2 : arg2.IsWhole) (arg3 : Memref sig .tc .vmem S1x8192x256 .f32) (harg3 : arg3.IsWhole) (arg4 : Memref sig .tc .vmem S1x8192x256 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x256 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8192 .f32) (harg11 : arg11.IsWhole) (hc0 : ¬cond0_0 i) (hc1 : ¬cond0_1 i) (hc2 : ¬cond0_2 i) (x0 : Vec F S1x2048 .f32) (x1 : Vec F S1x8192x256 .f32) (x2 : Vec F S1x8192x256 .f32) (x3 : Vec F S1x1x8192 .f32) (x4 : Vec F S1x1x8192 .f32) (x5 : Vec F S1x1x256 .f32) (x6 : Vec F S1x1x2048 .f32) (xs0 : Vec F S1x2048 .f32) (xs1 : Vec F S1x8192 .f32) :
    sout0_B_1 c i arg2 harg2 arg3 harg3 arg4 harg4 arg5 harg5 arg6 harg6 arg7 harg7 arg8 harg8 arg9 harg9 arg10 harg10 arg11 harg11 hc0 hc1 hc2 x0 x1 x2 x3 x4 x5 x6 xs0 xs1 = k0_pay5 (tileRow i xs0) x5 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 hc2 x0 x1 x2 x3 x4 x5 x6 xs0 xs1)]
  unfold kernelRun0_B
  dsimp only
  rw [View.canon_unit_zero hz2]
  simp only [View.readAt_eq_ld, harg2.read_unread, harg3.read_unread, harg4.read_unread, harg5.read_unread,
    harg6.read_unread, harg7.read_unread, harg8.read_unread, harg10.read_unread, harg11.read_unread,
    View.ld_unit_zero (S := S1x2048) hz2, View.ld_unit_zero (S := S1x8192) hz2, View.ld_unit_zero (S := S1x1x256) hz3,
    View.ld_unit_zero (S := S1x8192x256) hz3, View.ld_unit_zero (S := S1x1x8192) hz3,
    View.ld_unit_zero (S := S1x1x2048) hz3]

/-- A layer's last tile: the accumulator likewise. -/
theorem acc_C (c : Dev nD) (i : grid0.Coords) (arg2 : Memref sig .tc .vmem S1x2048 .f32) (harg2 : arg2.IsWhole) (arg3 : Memref sig .tc .vmem S1x8192x256 .f32) (harg3 : arg3.IsWhole) (arg4 : Memref sig .tc .vmem S1x8192x256 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x256 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8192 .f32) (harg11 : arg11.IsWhole) (hc0 : ¬cond0_0 i) (hc1 : ¬cond0_1 i) (hc2 : cond0_2 i) (x0 : Vec F S1x2048 .f32) (x1 : Vec F S1x8192x256 .f32) (x2 : Vec F S1x8192x256 .f32) (x3 : Vec F S1x1x8192 .f32) (x4 : Vec F S1x1x8192 .f32) (x5 : Vec F S1x1x256 .f32) (x6 : Vec F S1x1x2048 .f32) (xs0 : Vec F S1x2048 .f32) (xs1 : Vec F S1x8192 .f32) :
    sout0_C_1 c i arg2 harg2 arg3 harg3 arg4 harg4 arg5 harg5 arg6 harg6 arg7 harg7 arg8 harg8 arg9 harg9 arg10 harg10 arg11 harg11 hc0 hc1 hc2 x0 x1 x2 x3 x4 x5 x6 xs0 xs1 = k0_pay5 (tileRow i xs0) x5 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 hc2 x0 x1 x2 x3 x4 x5 x6 xs0 xs1)]
  unfold kernelRun0_C
  dsimp only
  sl_unfold_run_names
  rw [View.canon_unit_zero hz2]
  simp only [View.readAt_eq_ld, harg2.read_unread, harg3.read_unread, harg4.read_unread, harg5.read_unread,
    harg6.read_unread, harg7.read_unread, harg8.read_unread, harg10.read_unread, harg11.read_unread,
    View.ld_unit_zero (S := S1x2048) hz2, View.ld_unit_zero (S := S1x8192) hz2, View.ld_unit_zero (S := S1x1x256) hz3,
    View.ld_unit_zero (S := S1x8192x256) hz3, View.ld_unit_zero (S := S1x1x8192) hz3,
    View.ld_unit_zero (S := S1x1x2048) hz3]

/-- A layer's last tile: the carried input becomes the next layer's input, from the accumulator just stored. -/
theorem next_C (c : Dev nD) (i : grid0.Coords) (arg2 : Memref sig .tc .vmem S1x2048 .f32) (harg2 : arg2.IsWhole) (arg3 : Memref sig .tc .vmem S1x8192x256 .f32) (harg3 : arg3.IsWhole) (arg4 : Memref sig .tc .vmem S1x8192x256 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x256 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8192 .f32) (harg11 : arg11.IsWhole) (hc0 : ¬cond0_0 i) (hc1 : ¬cond0_1 i) (hc2 : cond0_2 i) (x0 : Vec F S1x2048 .f32) (x1 : Vec F S1x8192x256 .f32) (x2 : Vec F S1x8192x256 .f32) (x3 : Vec F S1x1x8192 .f32) (x4 : Vec F S1x1x8192 .f32) (x5 : Vec F S1x1x256 .f32) (x6 : Vec F S1x1x2048 .f32) (xs0 : Vec F S1x2048 .f32) (xs1 : Vec F S1x8192 .f32) :
    sout0_C_0 c i arg2 harg2 arg3 harg3 arg4 harg4 arg5 harg5 arg6 harg6 arg7 harg7 arg8 harg8 arg9 harg9 arg10 harg10 arg11 harg11 hc0 hc1 hc2 x0 x1 x2 x3 x4 x5 x6 xs0 xs1 = k0_pay2 (k0_pay5 (tileRow i xs0) x5 x1 x2 xs1) x3 x4 x6 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 hc2 x0 x1 x2 x3 x4 x5 x6 xs0 xs1)]
  unfold kernelRun0_C
  dsimp only
  sl_unfold_run_names
  rw [View.canon_unit_zero hz2, View.readCov_unit_zero (S := S1x8192) _ hz2]
  simp only [View.readAt_eq_ld, harg2.read_unread, harg3.read_unread, harg4.read_unread, harg5.read_unread,
    harg6.read_unread, harg7.read_unread, harg8.read_unread, harg10.read_unread, harg11.read_unread,
    View.ld_unit_zero (S := S1x2048) hz2, View.ld_unit_zero (S := S1x8192) hz2, View.ld_unit_zero (S := S1x1x256) hz3,
    View.ld_unit_zero (S := S1x8192x256) hz3, View.ld_unit_zero (S := S1x1x8192) hz3,
    View.ld_unit_zero (S := S1x1x2048) hz3]

/-- A layer's last tile: the output block receives the cell's output, from the accumulator just stored. -/
theorem out_C (c : Dev nD) (i : grid0.Coords) (arg2 : Memref sig .tc .vmem S1x2048 .f32) (harg2 : arg2.IsWhole) (arg3 : Memref sig .tc .vmem S1x8192x256 .f32) (harg3 : arg3.IsWhole) (arg4 : Memref sig .tc .vmem S1x8192x256 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x256 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8192 .f32) (harg11 : arg11.IsWhole) (hc0 : ¬cond0_0 i) (hc1 : ¬cond0_1 i) (hc2 : cond0_2 i) (x0 : Vec F S1x2048 .f32) (x1 : Vec F S1x8192x256 .f32) (x2 : Vec F S1x8192x256 .f32) (x3 : Vec F S1x1x8192 .f32) (x4 : Vec F S1x1x8192 .f32) (x5 : Vec F S1x1x256 .f32) (x6 : Vec F S1x1x2048 .f32) (xs0 : Vec F S1x2048 .f32) (xs1 : Vec F S1x8192 .f32) :
    out0_C_7 c i arg2 harg2 arg3 harg3 arg4 harg4 arg5 harg5 arg6 harg6 arg7 harg7 arg8 harg8 arg9 harg9 arg10 harg10 arg11 harg11 hc0 hc1 hc2 x0 x1 x2 x3 x4 x5 x6 xs0 xs1 = k0_pay1 (k0_pay5 (tileRow i xs0) x5 x1 x2 xs1) x3 x4 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 hc2 x0 x1 x2 x3 x4 x5 x6 xs0 xs1)]
  unfold kernelRun0_C
  dsimp only
  sl_unfold_run_names
  rw [View.canon_unit_zero hz2, View.readCov_unit_zero (S := S1x8192) _ hz2]
  simp only [View.readAt_eq_ld, harg2.read_unread, harg3.read_unread, harg4.read_unread, harg5.read_unread,
    harg6.read_unread, harg7.read_unread, harg8.read_unread, harg10.read_unread, harg11.read_unread,
    View.ld_unit_zero (S := S1x2048) hz2, View.ld_unit_zero (S := S1x8192) hz2, View.ld_unit_zero (S := S1x1x256) hz3,
    View.ld_unit_zero (S := S1x8192x256) hz3, View.ld_unit_zero (S := S1x1x8192) hz3,
    View.ld_unit_zero (S := S1x1x2048) hz3]

/-- A later layer's first tile: the accumulator restarts from the zero row. -/
theorem acc_D (c : Dev nD) (i : grid0.Coords) (arg2 : Memref sig .tc .vmem S1x2048 .f32) (harg2 : arg2.IsWhole) (arg3 : Memref sig .tc .vmem S1x8192x256 .f32) (harg3 : arg3.IsWhole) (arg4 : Memref sig .tc .vmem S1x8192x256 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x256 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8192 .f32) (harg11 : arg11.IsWhole) (hc0 : ¬cond0_0 i) (hc1 : cond0_1 i) (hc2 : ¬cond0_2 i) (x0 : Vec F S1x2048 .f32) (x1 : Vec F S1x8192x256 .f32) (x2 : Vec F S1x8192x256 .f32) (x3 : Vec F S1x1x8192 .f32) (x4 : Vec F S1x1x8192 .f32) (x5 : Vec F S1x1x256 .f32) (x6 : Vec F S1x1x2048 .f32) (xs0 : Vec F S1x2048 .f32) :
    sout0_D_1 c i arg2 harg2 arg3 harg3 arg4 harg4 arg5 harg5 arg6 harg6 arg7 harg7 arg8 harg8 arg9 harg9 arg10 harg10 arg11 harg11 hc0 hc1 hc2 x0 x1 x2 x3 x4 x5 x6 xs0 = k0_pay5 (tileRow i xs0) x5 x1 x2 (k0_pay4 (F := F)) := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_D
  dsimp only
  sl_unfold_run_names
  rw [View.canon_cons_unit_zero (S := S1x8192) hz2, View.readCov_unit_zero (S := S1x8192) _ hz2]
  simp only [View.readAt_eq_ld, harg2.read_unread, harg3.read_unread, harg4.read_unread, harg5.read_unread,
    harg6.read_unread, harg7.read_unread, harg8.read_unread, harg10.read_unread, harg11.read_unread,
    View.ld_unit_zero (S := S1x2048) hz2, View.ld_unit_zero (S := S1x8192) hz2, View.ld_unit_zero (S := S1x1x256) hz3,
    View.ld_unit_zero (S := S1x8192x256) hz3, View.ld_unit_zero (S := S1x1x8192) hz3,
    View.ld_unit_zero (S := S1x1x2048) hz3]

/-- The very first point: the carried input is the stack's input, copied in. -/
theorem copy_A (c : Dev nD) (i : grid0.Coords) (arg2 : Memref sig .tc .vmem S1x2048 .f32) (harg2 : arg2.IsWhole) (arg3 : Memref sig .tc .vmem S1x8192x256 .f32) (harg3 : arg3.IsWhole) (arg4 : Memref sig .tc .vmem S1x8192x256 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x256 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8192 .f32) (harg11 : arg11.IsWhole) (hc0 : cond0_0 i) (hc1 : cond0_1 i) (hc2 : ¬cond0_2 i) (x0 : Vec F S1x2048 .f32) (x1 : Vec F S1x8192x256 .f32) (x2 : Vec F S1x8192x256 .f32) (x3 : Vec F S1x1x8192 .f32) (x4 : Vec F S1x1x8192 .f32) (x5 : Vec F S1x1x256 .f32) (x6 : Vec F S1x1x2048 .f32) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 = k0_pay3 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_A
  dsimp only
  sl_unfold_run_names
  rw [View.canon_unit_zero hz2]
  simp only [View.readAt_eq_ld, harg2.read_unread, harg3.read_unread, harg4.read_unread, harg5.read_unread,
    harg6.read_unread, harg7.read_unread, harg8.read_unread, harg10.read_unread, harg11.read_unread,
    View.ld_unit_zero (S := S1x2048) hz2, View.ld_unit_zero (S := S1x8192) hz2, View.ld_unit_zero (S := S1x1x256) hz3,
    View.ld_unit_zero (S := S1x8192x256) hz3, View.ld_unit_zero (S := S1x1x8192) hz3,
    View.ld_unit_zero (S := S1x1x2048) hz3]

/-- The very first point: the accumulator restarts from the zero row, its tile read off the copy just made. -/
theorem acc_A (c : Dev nD) (i : grid0.Coords) (arg2 : Memref sig .tc .vmem S1x2048 .f32) (harg2 : arg2.IsWhole) (arg3 : Memref sig .tc .vmem S1x8192x256 .f32) (harg3 : arg3.IsWhole) (arg4 : Memref sig .tc .vmem S1x8192x256 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x1x256 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x8192 .f32) (harg11 : arg11.IsWhole) (hc0 : cond0_0 i) (hc1 : cond0_1 i) (hc2 : ¬cond0_2 i) (x0 : Vec F S1x2048 .f32) (x1 : Vec F S1x8192x256 .f32) (x2 : Vec F S1x8192x256 .f32) (x3 : Vec F S1x1x8192 .f32) (x4 : Vec F S1x1x8192 .f32) (x5 : Vec F S1x1x256 .f32) (x6 : Vec F S1x1x2048 .f32) :
    sout0_A_1 c i arg2 harg2 arg3 harg3 arg4 harg4 arg5 harg5 arg6 harg6 arg7 harg7 arg8 harg8 arg9 harg9 arg10 harg10 arg11 harg11 hc0 hc1 hc2 x0 x1 x2 x3 x4 x5 x6 = k0_pay5 (tileRow i (k0_pay3 x0)) x5 x1 x2 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_A
  dsimp only
  sl_unfold_run_names
  rw [View.canon_cons_unit_zero (S := S1x8192) hz2, View.readCov_unit_zero (S := S1x8192) _ hz2,
    View.readAt_writes_junk_eq_canon, View.canon_unit_zero hz2]
  simp only [View.readAt_eq_ld, harg2.read_unread, harg3.read_unread, harg4.read_unread, harg5.read_unread,
    harg6.read_unread, harg7.read_unread, harg8.read_unread, harg10.read_unread, harg11.read_unread,
    View.ld_unit_zero (S := S1x2048) hz2, View.ld_unit_zero (S := S1x8192) hz2, View.ld_unit_zero (S := S1x1x256) hz3,
    View.ld_unit_zero (S := S1x8192x256) hz3, View.ld_unit_zero (S := S1x1x8192) hz3,
    View.ld_unit_zero (S := S1x1x2048) hz3]
  rfl

end Cert.KernelIdeal.Pieces

end
-- ==== Proof.KernelSteps.lean ====
/-
  How the carried buffers move from one grid point to the next, case by case.

  The 64 points run in order. At the first point the carried input is set to the stack's input; at every point the
  accumulator is updated with the point's tile (from the zero row at a layer's first tile, from the accumulator of the
  point before otherwise); at a layer's last tile the carried input is replaced by the next layer's input and the
  output block receives the layer's output, both from the accumulator just updated. Between those events a carried
  buffer holds what the point before left in it.
-/
import proofs.«131363_j14688788152407_1_alg».proof.Proof.KernelPieces

noncomputable section

namespace Cert.KernelIdeal.Steps

open Cert.KernelIdeal Cert.KernelIdeal.Gen Cert.KernelIdeal.Pieces Idealize.ShloMosaic Idealize.ShloMosaic.TcCoe
open Idealize.SL.Sem

variable {F : FTy → Type} [FloatOps F]
variable (m : (ℓ : Loc nD τ sig) → Buf (Elt F) ℓ) (c : Dev nD) (t : Fin cfg0.N)

/-- The first point: the carried input is the stack's input block, the accumulator the first tile's share. -/
theorem first (h0 : t.val % 64 = 0) (h1 : t.val % 8 = 0) (h2 : ¬t.val % 8 = 7) :
    (outsAt0 m c t.val t.isLt).2.1 = k0_pay3 (iblk m c 0 t)
    ∧ (outsAt0 m c t.val t.isLt).2.2 = k0_pay5 (tileRow (grid0.coords t) (k0_pay3 (iblk m c 0 t))) (iblk m c 5 t) (iblk m c 1 t) (iblk m c 2 t) (k0_pay4 (F := F)) := by
  have e := outsAt0_A m c t h0 h1 h2
  constructor
  · rw [e]; dsimp only; rw [copy_A]
  · rw [e]; dsimp only; rw [acc_A]

/-- A middle tile: the carried input stays, the accumulator gains the tile's share. -/
theorem middle (h0 : ¬t.val % 64 = 0) (h1 : ¬t.val % 8 = 0) (h2 : ¬t.val % 8 = 7) :
    (outsAt0 m c t.val t.isLt).2.1 = (outsAt0 m c (t.val - 1) (Nat.lt_of_le_of_lt (Nat.sub_le _ _) t.isLt)).2.1
    ∧ (outsAt0 m c t.val t.isLt).2.2 = k0_pay5 (tileRow (grid0.coords t) (outsAt0 m c (t.val - 1) (Nat.lt_of_le_of_lt (Nat.sub_le _ _) t.isLt)).2.1) (iblk m c 5 t) (iblk m c 1 t) (iblk m c 2 t) (outsAt0 m c (t.val - 1) (Nat.lt_of_le_of_lt (Nat.sub_le _ _) t.isLt)).2.2 := by
  have e := outsAt0_B m c t h0 h1 h2
  constructor
  · rw [e]; rfl
  · rw [e]; dsimp only; rw [acc_B]

/-- A later layer's first tile: the carried input stays, the accumulator restarts from the zero row. -/
theorem restart (h0 : ¬t.val % 64 = 0) (h1 : t.val % 8 = 0) (h2 : ¬t.val % 8 = 7) :
    (outsAt0 m c t.val t.isLt).2.1 = (outsAt0 m c (t.val - 1) (Nat.lt_of_le_of_lt (Nat.sub_le _ _) t.isLt)).2.1
    ∧ (outsAt0 m c t.val t.isLt).2.2 = k0_pay5 (tileRow (grid0.coords t) (outsAt0 m c (t.val - 1) (Nat.lt_of_le_of_lt (Nat.sub_le _ _) t.isLt)).2.1) (iblk m c 5 t) (iblk m c 1 t) (iblk m c 2 t) (k0_pay4 (F := F)) := by
  have e := outsAt0_D m c t h0 h1 h2
  constructor
  · rw [e]; rfl
  · rw [e]; dsimp only; rw [acc_D]

/-- A layer's last tile: the accumulator gains the tile's share; from it, the next layer's input and the output. -/
theorem last (h0 : ¬t.val % 64 = 0) (h1 : ¬t.val % 8 = 0) (h2 : t.val % 8 = 7) :
    (outsAt0 m c t.val t.isLt).2.2 = k0_pay5 (tileRow (grid0.coords t) (outsAt0 m c (t.val - 1) (Nat.lt_of_le_of_lt (Nat.sub_le _ _) t.isLt)).2.1) (iblk m c 5 t) (iblk m c 1 t) (iblk m c 2 t) (outsAt0 m c (t.val - 1) (Nat.lt_of_le_of_lt (Nat.sub_le _ _) t.isLt)).2.2
    ∧ (outsAt0 m c t.val t.isLt).2.1
        = k0_pay2 (k0_pay5 (tileRow (grid0.coords t) (outsAt0 m c (t.val - 1) (Nat.lt_of_le_of_lt (Nat.sub_le _ _) t.isLt)).2.1) (iblk m c 5 t) (iblk m c 1 t) (iblk m c 2 t) (outsAt0 m c (t.val - 1) (Nat.lt_of_le_of_lt (Nat.sub_le _ _) t.isLt)).2.2) (iblk m c 3 t) (iblk m c 4 t) (iblk m c 6 t)
    ∧ (outsAt0 m c t.val t.isLt).1
        = k0_pay1 (k0_pay5 (tileRow (grid0.coords t) (outsAt0 m c (t.val - 1) (Nat.lt_of_le_of_lt (Nat.sub_le _ _) t.isLt)).2.1) (iblk m c 5 t) (iblk m c 1 t) (iblk m c 2 t) (outsAt0 m c (t.val - 1) (Nat.lt_of_le_of_lt (Nat.sub_le _ _) t.isLt)).2.2) (iblk m c 3 t) (iblk m c 4 t) (iblk m c 6 t) := by
  have e := outsAt0_C m c t h0 h1 h2
  refine ⟨?_, ?_, ?_⟩
  · rw [e]; dsimp only; rw [acc_C]
  · rw [e]; dsimp only; rw [next_C]
  · rw [e]; dsimp only; rw [out_C]

end Cert.KernelIdeal.Steps

end
-- ==== Proof.LibTransposedMatmul.lean ====
/-
  A matrix product with the right operand transposed, into a zero accumulator, read at an entry, at the exact
  (extended-real) values.

  For an m×k matrix A and an n×k matrix B, contracting the last axis of both, the product's (a, b) entry is the sum
  over the contracted coordinate c of A(a, c) · B(b, c) — the (a, b) entry of A·Bᵀ: the contraction's index set has
  one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the product of an m×k matrix with the transpose of an n×k matrix, accumulated into the zero
    matrix, is `∑ c, A (a, c) * B (b, c)` on the extended reals. -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact hc
  have er : (DotDims.transposedRhs m k n).rhsIdx (ix2 a b) ((contrEquiv1 (DotDims.transposedRhs m k n) k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact hc
  rw [el, er]

end Idealize.ShloMosaic.ValueIdx

end
-- ==== Proof.LibRunningSum.lean ====
/-
  Sums that restart every eight steps, and sums over a product range.

  * `running_sum8`: a sequence that restarts at every multiple of eight (`u n = g n` there) and otherwise adds the new
    term to its previous value is, at step `n`, the sum of `g` over the steps of `n`'s own run of eight up to `n`.
  * `sum_fin_mul`: a sum over `Fin (m · n)` is the double sum over the `m` blocks of `n` consecutive positions.
-/
import Mathlib.Algebra.BigOperators.Fin
import Mathlib.Algebra.BigOperators.Intervals
import Mathlib.Tactic.Ring
import Mathlib.Logic.Equiv.Fin.Basic

namespace Cert.LibRunningSum

/-- A sequence restarted at every multiple of eight and otherwise extended by one term is the partial sum over its
    current run of eight. -/
theorem running_sum8 {M : Type*} [AddCommMonoid M] (N : ℕ) (u g : ℕ → M)
    (h0 : 0 < N → u 0 = g 0)
    (hA : ∀ n, n + 1 < N → (n + 1) % 8 = 0 → u (n + 1) = g (n + 1))
    (hB : ∀ n, n + 1 < N → (n + 1) % 8 ≠ 0 → u (n + 1) = u n + g (n + 1)) :
    ∀ n, n < N → u n = ∑ k ∈ Finset.range (n % 8 + 1), g (n / 8 * 8 + k) := by
  intro n
  induction n with
  | zero => intro h; simp [h0 h]
  | succ n ih =>
    intro h
    by_cases hm : (n + 1) % 8 = 0
    · have e3 : (n + 1) / 8 * 8 = n + 1 := by omega
      rw [hA n h hm, hm, e3]
      simp
    · have e1 : (n + 1) % 8 = n % 8 + 1 := by omega
      have e2 : (n + 1) / 8 = n / 8 := by omega
      have e3 : n / 8 * 8 + (n % 8 + 1) = n + 1 := by omega
      rw [hB n h hm, ih (by omega), e1, e2, Finset.sum_range_succ _ (n % 8 + 1), e3]

/-- A sum over `Fin (m · n)` is the sum over the `m` blocks of the sums over each block's `n` positions. -/
theorem sum_fin_mul {M : Type*} [AddCommMonoid M] (m n : ℕ) (f : Fin (m * n) → M) :
    ∑ p, f p = ∑ t : Fin m, ∑ q : Fin n, f ⟨t.val * n + q.val,
      Nat.lt_of_lt_of_le (Nat.add_lt_add_left q.isLt _) (by rw [← Nat.succ_mul]; exact Nat.mul_le_mul_right _ t.isLt)⟩ := by
  rw [← finProdFinEquiv.sum_comp, Fintype.sum_prod_type]
  refine Finset.sum_congr rfl fun t _ => Finset.sum_congr rfl fun q _ => congrArg f (Fin.ext ?_)
  simp [finProdFinEquiv]
  ring

end Cert.LibRunningSum
-- ==== Proof.LstmSpec.lean ====
/-
  A stack of eight LSTM cells applied to one vector, on the extended reals.

  One cell takes an input vector x, a recurrent vector h, a cell vector cc (each of length 2048), two 8192 x 2048
  weight matrices W and U and two bias vectors b and d of length 8192. Its four gate pre-activations are the four
  quarters of the length-8192 vector

      g j = (sum_c x c * W j c) + b j + (sum_c h c * U j c) + d j,

  and with sigma the logistic function it puts out

      out q = sigma (g (6144 + q)) * tanh (sigma (g (2048 + q)) * cc q + sigma (g q) * tanh (g (4096 + q))).

  Layer l + 1 takes tanh of layer l's output as its input; the stack's value is the last layer's output.

  The same pre-activation can be gathered tile by tile: cut the 2048 contracted columns into eight tiles of 256, start
  from zero, add for each tile the tile's share of x . W plus the tile's share of h . U, and add the two biases at the
  end. Addition on the extended reals is commutative and associative (an infinity absorbs, but order and grouping
  do not matter), so the two arrangements agree: accum_eight.
-/
import Idealize.ShloMosaic.PureOps.Ideal
import Idealize.ShloMosaic.Lib.ValueIdx
import Idealize.ShloMosaic.Lib.Pipeline.Value
import Idealize.ShloMosaic.PureOps.Ideal.Laws
import proofs.«131363_j14688788152407_1_alg».proof.Proof.LibRunningSum

noncomputable section

open scoped BigOperators

namespace Cert.Lstm

open Idealize.ShloMosaic

/-- Column `c` of tile `k`: the contracted axis of length 2048 is eight consecutive tiles of 256 columns. -/
def col (k : Fin 8) (c : Fin 256) : Fin 2048 := ⟨k.val * 256 + c.val, by have := k.isLt; have := c.isLt; omega⟩

/-- Entry `q` of quarter `r` of a length-8192 gate vector (the quarters are the input, forget, cell and output gates). -/
def quarter (r : Fin 4) (q : Fin 2048) : Fin 8192 := ⟨r.val * 2048 + q.val, by have := r.isLt; have := q.isLt; omega⟩

/-- A gate pre-activation, each product summed over all 2048 columns at once. -/
def gate (x h : Fin 2048 → EReal) (W U : Fin 8192 → Fin 2048 → EReal) (b d : Fin 8192 → EReal) (j : Fin 8192) : EReal :=
  (∑ c, x c * W j c) + b j + (∑ c, h c * U j c) + d j

/-- One tile's share of a gate pre-activation: its 256 columns of x . W plus its 256 columns of h . U. -/
def tile (x h : Fin 2048 → EReal) (W U : Fin 8192 → Fin 2048 → EReal) (j : Fin 8192) (k : Fin 8) : EReal :=
  (∑ c : Fin 256, x (col k c) * W j (col k c)) + (∑ c : Fin 256, h (col k c) * U j (col k c))

/-- The running total after the first `n` tiles, started from zero. -/
def accum (x h : Fin 2048 → EReal) (W U : Fin 8192 → Fin 2048 → EReal) (j : Fin 8192) : ℕ → EReal
  | 0 => 0
  | n + 1 => accum x h W U j n + (if hn : n < 8 then tile x h W U j ⟨n, hn⟩ else 0)

/-- A sum over the 2048 columns is the sum over the eight tiles of the sums over each tile's columns. -/
theorem sum_cols (f : Fin 2048 → EReal) : ∑ c, f c = ∑ k : Fin 8, ∑ q : Fin 256, f (col k q) :=
  Cert.LibRunningSum.sum_fin_mul 8 256 f

/-- All eight tiles and the two biases make the gate pre-activation. -/
theorem accum_eight (x h : Fin 2048 → EReal) (W U : Fin 8192 → Fin 2048 → EReal) (b d : Fin 8192 → EReal) (j : Fin 8192) :
    accum x h W U j 8 + b j + d j = gate x h W U b d j := by
  have e : accum x h W U j 8 = ∑ k : Fin 8, tile x h W U j k := by
    simp only [accum, Fin.sum_univ_eight, zero_add]
    rfl
  rw [e]
  unfold tile gate
  rw [Finset.sum_add_distrib, ← sum_cols (fun c => x c * W j c), ← sum_cols (fun c => h c * U j c)]
  abel

/-- What a cell puts out, from its gate pre-activations `g` and its cell vector `cc`. -/
def cellOut (g : Fin 8192 → EReal) (cc : Fin 2048 → EReal) (q : Fin 2048) : EReal :=
  Ideal.logistic (g (quarter 3 q))
    * Ideal.tanh (Ideal.logistic (g (quarter 1 q)) * cc q + Ideal.logistic (g (quarter 0 q)) * Ideal.tanh (g (quarter 2 q)))

/-- Entry q of the length-2048 piece of a length-8192 row that starts at column 2048 r is the row's entry 2048 r + q. -/
theorem quarter_apply {α : Type} (r : Fin 4) (off : Fin 2 → ℕ) (hoff : off = ![0, r.val * 2048])
    (g : (⟨2, ![1, 8192]⟩ : Shape).Idx → α) (hsl : (⟨2, ![1, 8192]⟩ : Shape).Slices off ⟨2, ![1, 2048]⟩) (u : Fin 1)
    (q : Fin 2048) :
    extractStridedSlice ⟨2, ![1, 2048]⟩ off g hsl (ValueIdx.ix2 u q) = g (ValueIdx.ix2 u (quarter r q)) := by
  subst hoff
  refine extractStridedSlice_apply _ g hsl _ _ fun a => ?_
  match a with
  | ⟨0, _⟩ => show u.val = 0 + u.val; omega
  | ⟨1, _⟩ => rfl

/-- The f32 word of the number one is the extended real one. -/
theorem ofBits_one : Ideal.ofBits .f32 0x3F800000#32 = 1 := by
  simp [Ideal.ofBits, Ideal.ieee, -EReal.coe_mul]; norm_num

/-- Layer number `l` as one of the eight layers. -/
def lay (l : ℕ) : Fin 8 := ⟨l % 8, Nat.mod_lt _ (by decide)⟩

section Stack

variable (x : Fin 2048 → EReal) (W U : Fin 8 → Fin 8192 → Fin 2048 → EReal) (b d : Fin 8 → Fin 8192 → EReal)
  (h cc : Fin 8 → Fin 2048 → EReal)

/-- The input of layer `l`: the stack's input for the first layer, tanh of the previous layer's output after that. -/
def input : ℕ → Fin 2048 → EReal
  | 0 => x
  | l + 1 => fun q => Ideal.tanh (cellOut
      (gate (input l) (h (lay l)) (W (lay l)) (U (lay l)) (b (lay l)) (d (lay l))) (cc (lay l)) q)

/-- The gate pre-activations of layer `l`. -/
def gates (l : ℕ) : Fin 8192 → EReal :=
  gate (input x W U b d h cc l) (h (lay l)) (W (lay l)) (U (lay l)) (b (lay l)) (d (lay l))

/-- The output of layer `l`. -/
def output (l : ℕ) : Fin 2048 → EReal := cellOut (gates x W U b d h cc l) (cc (lay l))

theorem input_succ (l : ℕ) (q : Fin 2048) :
    input x W U b d h cc (l + 1) q = Ideal.tanh (output x W U b d h cc l q) := rfl

/-- The running total of layer `l`'s pre-activation `j` after the first `n` tiles. -/
def partialGate (l : ℕ) (j : Fin 8192) (n : ℕ) : EReal :=
  accum (input x W U b d h cc l) (h (lay l)) (W (lay l)) (U (lay l)) j n

theorem partialGate_zero (l : ℕ) (j : Fin 8192) : partialGate x W U b d h cc l j 0 = 0 := rfl

theorem partialGate_succ (l : ℕ) (j : Fin 8192) (n : ℕ) (hn : n < 8) :
    partialGate x W U b d h cc l j (n + 1) = partialGate x W U b d h cc l j n
      + tile (input x W U b d h cc l) (h (lay l)) (W (lay l)) (U (lay l)) j ⟨n, hn⟩ := by
  unfold partialGate
  rw [accum, dif_pos hn]

/-- After all eight tiles, with the two biases added, the running total is the layer's pre-activation. -/
theorem partialGate_eight (l : ℕ) (j : Fin 8192) :
    partialGate x W U b d h cc l j 8 + b (lay l) j + d (lay l) j = gates x W U b d h cc l j :=
  accum_eight _ _ _ _ _ _ j

end Stack

/-! ## The arrays as the programs hold them

The input is one array of 2048 numbers, the two weight tables are 8 x 8192 x 2048, the two bias tables 8 x 8192, the
recurrent and cell tables 8 x 1 x 2048; layer l uses slab l of each. -/

/-- A length-2048 array as a vector. -/
def xOf (A : (⟨1, ![2048]⟩ : Shape).Idx → EReal) : Fin 2048 → EReal := fun p => A (ValueIdx.ix1 p)

/-- An 8 x 8192 x 2048 table as one matrix per layer. -/
def wOf (A : (⟨3, ![8, 8192, 2048]⟩ : Shape).Idx → EReal) : Fin 8 → Fin 8192 → Fin 2048 → EReal :=
  fun l j p => A (ValueIdx.ix3 l j p)

/-- An 8 x 8192 table as one bias vector per layer. -/
def bOf (A : (⟨2, ![8, 8192]⟩ : Shape).Idx → EReal) : Fin 8 → Fin 8192 → EReal := fun l j => A (ValueIdx.ix2 l j)

/-- An 8 x 1 x 2048 table as one row per layer. -/
def rOf (A : (⟨3, ![8, 1, 2048]⟩ : Shape).Idx → EReal) : Fin 8 → Fin 2048 → EReal :=
  fun l p => A (ValueIdx.ix3 l (0 : Fin 1) p)

section Arrays

variable (A0 : (⟨1, ![2048]⟩ : Shape).Idx → EReal) (A1 A2 : (⟨3, ![8, 8192, 2048]⟩ : Shape).Idx → EReal)
  (A3 A4 : (⟨2, ![8, 8192]⟩ : Shape).Idx → EReal) (A5 A6 : (⟨3, ![8, 1, 2048]⟩ : Shape).Idx → EReal)

/-- Layer l's input, from the seven arrays. -/
abbrev inputA (l : ℕ) : Fin 2048 → EReal := input (xOf A0) (wOf A1) (wOf A2) (bOf A3) (bOf A4) (rOf A5) (rOf A6) l

/-- Layer l's gate pre-activations, from the seven arrays. -/
abbrev gatesA (l : ℕ) : Fin 8192 → EReal := gates (xOf A0) (wOf A1) (wOf A2) (bOf A3) (bOf A4) (rOf A5) (rOf A6) l

/-- Layer l's output, from the seven arrays. -/
abbrev outputA (l : ℕ) : Fin 2048 → EReal := output (xOf A0) (wOf A1) (wOf A2) (bOf A3) (bOf A4) (rOf A5) (rOf A6) l

/-- Layer l's running pre-activation total after n tiles, from the seven arrays. -/
abbrev partialA (l : ℕ) (j : Fin 8192) (n : ℕ) : EReal :=
  partialGate (xOf A0) (wOf A1) (wOf A2) (bOf A3) (bOf A4) (rOf A5) (rOf A6) l j n

/-- The stack's value as a 1 x 1 x 2048 array: the last layer's output. -/
def stackValue : (⟨3, ![1, 1, 2048]⟩ : Shape).Idx → EReal := fun y => outputA A0 A1 A2 A3 A4 A5 A6 7 (y 2)

end Arrays

end Cert.Lstm

end
-- ==== Proof.KernelPayloads.lean ====
/-
  What the kernel body's stored values are, entry by entry, on the extended reals.

  * The accumulator update (`tile_apply`): at column j the new accumulator is the old one plus the 256-column share of
    x . W plus the 256-column share of h . U, where the two products are row-by-matrix-transposed products into a zero
    accumulator and the narrowing to bf16 before them is the identity on exact values.
  * The cell (`cell_apply`): the four quarters of (accumulator + b + d) are the input, forget, cell and output gates,
    and the value put out is sigma(o) * tanh(sigma(f) * cc + sigma(i) * tanh(g)).
  * The next layer's input is tanh of that (`next_apply`); the first point copies the stack's input (`copy_eq`); a
    layer's first tile starts from the zero vector (`zero_apply`).
-/
import proofs.«131363_j14688788152407_1_alg».proof.Proof.Gen.KernelIdeal.Skeleton
import proofs.«131363_j14688788152407_1_alg».proof.Proof.LibTransposedMatmul
import proofs.«131363_j14688788152407_1_alg».proof.Proof.LstmSpec
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The accumulator after one tile: the old accumulator plus the tile's two partial products. -/
theorem tile_apply (v11 : Vec Ideal S1x256 .f32) (v12 : Vec Ideal S1x1x256 .f32) (v14 v16 : Vec Ideal S1x8192x256 .f32)
    (v24 : Vec Ideal S1x8192 .f32) (j : Fin 8192) :
    k0_pay5 (F := Ideal) v11 v12 v14 v16 v24 (ix2 (0 : Fin 1) j)
      = v24 (ix2 (0 : Fin 1) j) + ((∑ c : Fin 256, v11 (ix2 (0 : Fin 1) c) * v14 (ix3 (0 : Fin 1) j c))
          + (∑ c : Fin 256, v12 (ix3 (0 : Fin 1) (0 : Fin 1) c) * v16 (ix3 (0 : Fin 1) j c))) := by
  unfold k0_pay5
  refine (congrFun (shapeCast_self _ _) _).trans ?_
  show v24 (ix2 (0 : Fin 1) j) + (_ + _) = _
  refine congrArg₂ (· + ·) rfl (congrArg₂ (· + ·) ?_ ?_)
  · refine (matmul_transposedRhs_zero_apply none _ _ (0 : Fin 1) j).trans ?_
    refine Finset.sum_congr rfl fun c _ => ?_
    show v11 (ix2 (0 : Fin 1) c) * shapeCast S8192x256 v14 _ (ix2 j c) = _
    exact congrArg (v11 (ix2 (0 : Fin 1) c) * ·) (shapeCast_1ab_ab_apply v14 _ j c)
  · refine (matmul_transposedRhs_zero_apply none _ _ (0 : Fin 1) j).trans ?_
    refine Finset.sum_congr rfl fun c _ => ?_
    show shapeCast S1x256 v12 _ (ix2 (0 : Fin 1) c) * shapeCast S8192x256 v16 _ (ix2 j c) = _
    exact congrArg₂ (· * ·) (shapeCast_1ab_ab_apply v12 _ (0 : Fin 1) c) (shapeCast_1ab_ab_apply v16 _ j c)

/-- The cell payload, spelt out: gates row = accumulator + two bias rows; then the four quarters combined. -/
theorem cell_eq (v33 : Vec Ideal S1x8192 .f32) (v34 v37 : Vec Ideal S1x1x8192 .f32) (v45 : Vec Ideal S1x1x2048 .f32) :
    k0_pay1 (F := Ideal) v33 v34 v37 v45
      = mulf (logistic (extractStridedSlice S1x2048 ![0, 6144] (addf (addf v33 (shapeCast S1x8192 v34 shapeCasts_S1x1x8192_S1x8192)) (shapeCast S1x8192 v37 shapeCasts_S1x1x8192_S1x8192)) slices_S1x8192_o0_6144_S1x2048))
          (tanh (addf (mulf (logistic (extractStridedSlice S1x2048 ![0, 2048] (addf (addf v33 (shapeCast S1x8192 v34 shapeCasts_S1x1x8192_S1x8192)) (shapeCast S1x8192 v37 shapeCasts_S1x1x8192_S1x8192)) slices_S1x8192_o0_2048_S1x2048)) (shapeCast S1x2048 v45 shapeCasts_S1x1x2048_S1x2048))
            (mulf (logistic (extractStridedSlice S1x2048 ![0, 0] (addf (addf v33 (shapeCast S1x8192 v34 shapeCasts_S1x1x8192_S1x8192)) (shapeCast S1x8192 v37 shapeCasts_S1x1x8192_S1x8192)) slices_S1x8192_o0_0_S1x2048)) (tanh (extractStridedSlice S1x2048 ![0, 4096] (addf (addf v33 (shapeCast S1x8192 v34 shapeCasts_S1x1x8192_S1x8192)) (shapeCast S1x8192 v37 shapeCasts_S1x1x8192_S1x8192)) slices_S1x8192_o0_4096_S1x2048))))) := rfl

/-- The cell's output at q, from the accumulator v33, the two bias rows v34, v37 and the cell row v45. -/
theorem cell_apply (v33 : Vec Ideal S1x8192 .f32) (v34 v37 : Vec Ideal S1x1x8192 .f32) (v45 : Vec Ideal S1x1x2048 .f32)
    (q : Fin 2048) :
    k0_pay1 (F := Ideal) v33 v34 v37 v45 (ix2 (0 : Fin 1) q)
      = Cert.Lstm.cellOut
          (fun j => v33 (ix2 (0 : Fin 1) j) + v34 (ix3 (0 : Fin 1) (0 : Fin 1) j) + v37 (ix3 (0 : Fin 1) (0 : Fin 1) j))
          (fun p => v45 (ix3 (0 : Fin 1) (0 : Fin 1) p)) q := by
  have hl : ∀ (v : FVec Ideal S1x2048 .f32) (i : S1x2048.Idx), logistic v i = Ideal.logistic (v i) := fun _ _ => rfl
  have ht : ∀ (v : FVec Ideal S1x2048 .f32) (i : S1x2048.Idx), tanh v i = Ideal.tanh (v i) := fun _ _ => rfl
  have hg : ∀ (u : Fin 1) (j : Fin 8192), ((addf (addf v33 (shapeCast S1x8192 v34 shapeCasts_S1x1x8192_S1x8192)) (shapeCast S1x8192 v37 shapeCasts_S1x1x8192_S1x8192)) : FVec Ideal S1x8192 .f32) (ix2 u j)
      = v33 (ix2 u j) + v34 (ix3 (0 : Fin 1) u j) + v37 (ix3 (0 : Fin 1) u j) := by
    intro u j
    rw [addf_apply, addf_apply, shapeCast_1ab_ab_apply v34 _ u j, shapeCast_1ab_ab_apply v37 _ u j]
  rw [cell_eq, mulf_apply, hl, ht, addf_apply, mulf_apply, hl, mulf_apply, hl, ht,
    Cert.Lstm.quarter_apply 3 ![0, 6144] rfl, Cert.Lstm.quarter_apply 1 ![0, 2048] rfl,
    Cert.Lstm.quarter_apply 0 ![0, 0] rfl, Cert.Lstm.quarter_apply 2 ![0, 4096] rfl,
    shapeCast_1ab_ab_apply v45 _ (0 : Fin 1) q, hg, hg, hg, hg]
  rfl

/-- The next layer's input is tanh of the cell's output. -/
theorem next_apply (v33 : Vec Ideal S1x8192 .f32) (v34 v37 : Vec Ideal S1x1x8192 .f32) (v45 : Vec Ideal S1x1x2048 .f32)
    (q : Fin 2048) :
    k0_pay2 (F := Ideal) v33 v34 v37 v45 (ix2 (0 : Fin 1) q)
      = Ideal.tanh (k0_pay1 (F := Ideal) v33 v34 v37 v45 (ix2 (0 : Fin 1) q)) := by
  unfold k0_pay2
  exact congrFun (shapeCast_self _ _) _

/-- The first point's copy of the stack's input is the input (any float values). -/
theorem copy_eq {F : FTy → Type} [FloatOps F] (v33 : Vec F S1x2048 .f32) : k0_pay3 (F := F) v33 = v33 := by
  unfold k0_pay3
  exact (shapeCast_self _ _).trans (shapeCast_self _ _)

/-- A layer's first tile starts from zero. -/
theorem zero_apply (i : S1x8192.Idx) : k0_pay4 (F := Ideal) i = 0 := by
  unfold k0_pay4
  refine (congrFun (shapeCast_self _ _) _).trans ?_
  exact Ideal.ofBits_zero_f32

end Cert.KernelIdeal.Payloads

end
-- ==== Proof.KernelBlocks.lean ====
/-
  Which entries of the arrays each grid point's blocks hold.

  The grid has 64 points; point t works on layer t / 8 and on tile t % 8 of the 2048 contracted columns. At point t
  the two weight windows hold rows 0..8191 and columns 256 (t % 8) .. 256 (t % 8) + 255 of layer t / 8's matrices,
  the recurrent window the same 256 columns of that layer's recurrent row, the two bias windows and the cell window that
  layer's whole rows, and the input window the whole input row. Each block entry is therefore one entry of the array as
  the region finds it, at the block's position times the block's extent plus the entry's coordinate inside the block.

  The three arrays the host reshapes before the region (the input to one row, the two bias tables to one row per
  layer) hold the argument arrays' entries in row-major order.
-/
import proofs.«131363_j14688788152407_1_alg».proof.Proof.Gen.KernelIdeal.Frame
import proofs.«131363_j14688788152407_1_alg».proof.Proof.LstmSpec
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The layer a grid point works on. -/
def layerOf (t : Fin cfg0.N) : Fin 8 := ⟨t.val / 8, by have := t.isLt; have hN : cfg0.N = 64 := N_0; omega⟩

/-- The tile of contracted columns a grid point works on. -/
def tileOf (t : Fin cfg0.N) : Fin 8 := ⟨t.val % 8, Nat.mod_lt _ (by decide)⟩

/-! ## The block positions, decided over the grid -/

theorem pos_x : ∀ t : Fin cfg0.N, win0_0.index t 0 = 0 ∧ win0_0.index t 1 = 0 :=
  (by decide +kernel : ∀ t : Fin grid0.N, win0_0.index t 0 = 0 ∧ win0_0.index t 1 = 0)

theorem pos_w : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)

theorem pos_u : ∀ t : Fin cfg0.N, win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8)

theorem pos_b : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

theorem pos_d : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

theorem pos_h : ∀ t : Fin cfg0.N, win0_5.index t 0 = t.val / 8 ∧ win0_5.index t 1 = 0 ∧ win0_5.index t 2 = t.val % 8 :=
  (by decide +kernel : ∀ t : Fin grid0.N, win0_5.index t 0 = t.val / 8 ∧ win0_5.index t 1 = 0 ∧ win0_5.index t 2 = t.val % 8)

theorem pos_c : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

/-- The accumulator's tile of the carried input starts at column 256 (t % 8). -/
theorem pos_tile : ∀ t : Fin cfg0.N, k0_off1 (grid0.coords t) 0 = 0 ∧ k0_off1 (grid0.coords t) 1 = t.val % 8 * 256 :=
  (by decide +kernel : ∀ t : Fin grid0.N, k0_off1 (grid0.coords t) 0 = 0 ∧ k0_off1 (grid0.coords t) 1 = t.val % 8 * 256)

/-! ## The blocks' entries -/

/-- The input window's block is the whole input row. -/
theorem x_block (c : Dev nD) (t : Fin cfg0.N) (u : Fin 1) (p : Fin 2048) :
    (iblk m c 0 t : Vec F S1x2048 .f32) (ix2 u p) = V m c main_v0 (ix2 (0 : Fin 1) p) := by
  unfold iblk
  rw [View.read_apply]
  show V m c main_v0 (((cfg0.win 0).blk t).view.emb (ix2 u p)) = V m c main_v0 (ix2 (0 : Fin 1) p)
  refine congrArg (V m c main_v0) (funext fun a => Fin.ext ?_)
  have hu : u.val = 0 := by omega
  match a with
  | ⟨0, _⟩ => show win0_0.index t 0 * 1 + 1 * u.val = 0; rw [(pos_x t).1]; omega
  | ⟨1, _⟩ => show win0_0.index t 1 * 2048 + 1 * p.val = p.val; rw [(pos_x t).2]; omega

/-- The first weight window's block: rows of layer t / 8's matrix, columns of tile t % 8. -/
theorem w_block (c : Dev nD) (t : Fin cfg0.N) (u : Fin 1) (j : Fin 8192) (q : Fin 256) :
    (iblk m c 1 t : Vec F S1x8192x256 .f32) (ix3 u j q)
      = V m c main_arg1 (ix3 (layerOf t) j (Cert.Lstm.col (tileOf t) q)) := by
  unfold iblk
  rw [View.read_apply]
  show V m c main_arg1 (((cfg0.win 1).blk t).view.emb (ix3 u j q)) = V m c main_arg1 _
  refine congrArg (V m c main_arg1) (funext fun a => Fin.ext ?_)
  have hu : u.val = 0 := by omega
  match a with
  | ⟨0, _⟩ => show win0_1.index t 0 * 1 + 1 * u.val = t.val / 8; rw [(pos_w t).1]; omega
  | ⟨1, _⟩ => show win0_1.index t 1 * 8192 + 1 * j.val = j.val; rw [(pos_w t).2.1]; omega
  | ⟨2, _⟩ => show win0_1.index t 2 * 256 + 1 * q.val = t.val % 8 * 256 + q.val; rw [(pos_w t).2.2]; omega

/-- The second weight window's block, likewise. -/
theorem u_block (c : Dev nD) (t : Fin cfg0.N) (u : Fin 1) (j : Fin 8192) (q : Fin 256) :
    (iblk m c 2 t : Vec F S1x8192x256 .f32) (ix3 u j q)
      = V m c main_arg2 (ix3 (layerOf t) j (Cert.Lstm.col (tileOf t) q)) := by
  unfold iblk
  rw [View.read_apply]
  show V m c main_arg2 (((cfg0.win 2).blk t).view.emb (ix3 u j q)) = V m c main_arg2 _
  refine congrArg (V m c main_arg2) (funext fun a => Fin.ext ?_)
  have hu : u.val = 0 := by omega
  match a with
  | ⟨0, _⟩ => show win0_2.index t 0 * 1 + 1 * u.val = t.val / 8; rw [(pos_u t).1]; omega
  | ⟨1, _⟩ => show win0_2.index t 1 * 8192 + 1 * j.val = j.val; rw [(pos_u t).2.1]; omega
  | ⟨2, _⟩ => show win0_2.index t 2 * 256 + 1 * q.val = t.val % 8 * 256 + q.val; rw [(pos_u t).2.2]; omega

/-- The first bias window's block: layer t / 8's row. -/
theorem b_block (c : Dev nD) (t : Fin cfg0.N) (u v : Fin 1) (j : Fin 8192) :
    (iblk m c 3 t : Vec F S1x1x8192 .f32) (ix3 u v j) = V m c main_v1 (ix3 (layerOf t) (0 : Fin 1) j) := by
  unfold iblk
  rw [View.read_apply]
  show V m c main_v1 (((cfg0.win 3).blk t).view.emb (ix3 u v j)) = V m c main_v1 _
  refine congrArg (V m c main_v1) (funext fun a => Fin.ext ?_)
  have hu : u.val = 0 := by omega
  have hv : v.val = 0 := by omega
  match a with
  | ⟨0, _⟩ => show win0_3.index t 0 * 1 + 1 * u.val = t.val / 8; rw [(pos_b t).1]; omega
  | ⟨1, _⟩ => show win0_3.index t 1 * 1 + 1 * v.val = 0; rw [(pos_b t).2.1]; omega
  | ⟨2, _⟩ => show win0_3.index t 2 * 8192 + 1 * j.val = j.val; rw [(pos_b t).2.2]; omega

/-- The second bias window's block, likewise. -/
theorem d_block (c : Dev nD) (t : Fin cfg0.N) (u v : Fin 1) (j : Fin 8192) :
    (iblk m c 4 t : Vec F S1x1x8192 .f32) (ix3 u v j) = V m c main_v2 (ix3 (layerOf t) (0 : Fin 1) j) := by
  unfold iblk
  rw [View.read_apply]
  show V m c main_v2 (((cfg0.win 4).blk t).view.emb (ix3 u v j)) = V m c main_v2 _
  refine congrArg (V m c main_v2) (funext fun a => Fin.ext ?_)
  have hu : u.val = 0 := by omega
  have hv : v.val = 0 := by omega
  match a with
  | ⟨0, _⟩ => show win0_4.index t 0 * 1 + 1 * u.val = t.val / 8; rw [(pos_d t).1]; omega
  | ⟨1, _⟩ => show win0_4.index t 1 * 1 + 1 * v.val = 0; rw [(pos_d t).2.1]; omega
  | ⟨2, _⟩ => show win0_4.index t 2 * 8192 + 1 * j.val = j.val; rw [(pos_d t).2.2]; omega

/-- The recurrent window's block: tile t % 8 of layer t / 8's recurrent row. -/
theorem h_block (c : Dev nD) (t : Fin cfg0.N) (u v : Fin 1) (q : Fin 256) :
    (iblk m c 5 t : Vec F S1x1x256 .f32) (ix3 u v q)
      = V m c main_arg5 (ix3 (layerOf t) (0 : Fin 1) (Cert.Lstm.col (tileOf t) q)) := by
  unfold iblk
  rw [View.read_apply]
  show V m c main_arg5 (((cfg0.win 5).blk t).view.emb (ix3 u v q)) = V m c main_arg5 _
  refine congrArg (V m c main_arg5) (funext fun a => Fin.ext ?_)
  have hu : u.val = 0 := by omega
  have hv : v.val = 0 := by omega
  match a with
  | ⟨0, _⟩ => show win0_5.index t 0 * 1 + 1 * u.val = t.val / 8; rw [(pos_h t).1]; omega
  | ⟨1, _⟩ => show win0_5.index t 1 * 1 + 1 * v.val = 0; rw [(pos_h t).2.1]; omega
  | ⟨2, _⟩ => show win0_5.index t 2 * 256 + 1 * q.val = t.val % 8 * 256 + q.val; rw [(pos_h t).2.2]; omega

/-- The cell window's block: layer t / 8's cell row. -/
theorem c_block (c : Dev nD) (t : Fin cfg0.N) (u v : Fin 1) (p : Fin 2048) :
    (iblk m c 6 t : Vec F S1x1x2048 .f32) (ix3 u v p) = V m c main_arg6 (ix3 (layerOf t) (0 : Fin 1) p) := by
  unfold iblk
  rw [View.read_apply]
  show V m c main_arg6 (((cfg0.win 6).blk t).view.emb (ix3 u v p)) = V m c main_arg6 _
  refine congrArg (V m c main_arg6) (funext fun a => Fin.ext ?_)
  have hu : u.val = 0 := by omega
  have hv : v.val = 0 := by omega
  match a with
  | ⟨0, _⟩ => show win0_6.index t 0 * 1 + 1 * u.val = t.val / 8; rw [(pos_c t).1]; omega
  | ⟨1, _⟩ => show win0_6.index t 1 * 1 + 1 * v.val = 0; rw [(pos_c t).2.1]; omega
  | ⟨2, _⟩ => show win0_6.index t 2 * 2048 + 1 * p.val = p.val; rw [(pos_c t).2.2]; omega

/-! ## The arrays the host reshapes before the region -/

/-- The input row is the input vector. -/
theorem x_row (c : Dev nD) (u : Fin 1) (p : Fin 2048) :
    V m c main_v0 (ix2 u p) = m ((c : Thread nD τ).loc main_arg0) (ix1 p) := by
  have e : (V m c main_v0 : S1x2048.Idx → Elt F .f32)
      = shapeCast S1x2048 (m ((c : Thread nD τ).loc main_arg0)) shapeCasts_S2048_S1x2048 := by
    show StableHlo.after hostOps0 (fun b => m (c, b)) (Proc.devRef .tc main_v0) = _
    after_results
    rfl
  rw [e]
  exact shapeCast_a_1a_apply _ _ u p

/-- Row l of the first reshaped bias table is row l of the first bias argument. -/
theorem b_row (c : Dev nD) (l : Fin 8) (u : Fin 1) (j : Fin 8192) :
    V m c main_v1 (ix3 l u j) = m ((c : Thread nD τ).loc main_arg3) (ix2 l j) := by
  have e : (V m c main_v1 : S8x1x8192.Idx → Elt F .f32)
      = shapeCast S8x1x8192 (m ((c : Thread nD τ).loc main_arg3)) shapeCasts_S8x8192_S8x1x8192 := by
    show StableHlo.after hostOps0 (fun b => m (c, b)) (Proc.devRef .tc main_v1) = _
    after_results
    rfl
  rw [e]
  refine shapeCast_apply (s := S8x8192) (t := S8x1x8192) _ _ (ix3 l u j) (ix2 l j) ?_
  have hu : u.val = 0 := by omega
  rw [Shape.rowMajor_val_three, Shape.rowMajor_val_two]
  show l.val * 8192 + j.val = (l.val * 1 + u.val) * 8192 + j.val
  rw [hu]; omega

/-- Row l of the second reshaped bias table is row l of the second bias argument. -/
theorem d_row (c : Dev nD) (l : Fin 8) (u : Fin 1) (j : Fin 8192) :
    V m c main_v2 (ix3 l u j) = m ((c : Thread nD τ).loc main_arg4) (ix2 l j) := by
  have e : (V m c main_v2 : S8x1x8192.Idx → Elt F .f32)
      = shapeCast S8x1x8192 (m ((c : Thread nD τ).loc main_arg4)) shapeCasts_S8x8192_S8x1x8192 := by
    show StableHlo.after hostOps0 (fun b => m (c, b)) (Proc.devRef .tc main_v2) = _
    after_results
    rfl
  rw [e]
  refine shapeCast_apply (s := S8x8192) (t := S8x1x8192) _ _ (ix3 l u j) (ix2 l j) ?_
  have hu : u.val = 0 := by omega
  rw [Shape.rowMajor_val_three, Shape.rowMajor_val_two]
  show l.val * 8192 + j.val = (l.val * 1 + u.val) * 8192 + j.val
  rw [hu]; omega

end Cert.KernelIdeal.Blocks

end
-- ==== Proof.KernelState.lean ====
/-
  What the carried buffers hold after every grid point.

  Point n works on layer n / 8 and tile n % 8. After it,

    * the carried input row holds layer n / 8's input — or, once the layer's last tile (n % 8 = 7) has run, the next
      layer's input;
    * the accumulator holds the running total of layer n / 8's gate pre-activations over tiles 0 .. n % 8;
    * after a layer's last tile the output block holds that layer's output.

  By induction on n: the first point copies the stack's input in and starts the first total from zero; a middle tile
  adds its share; a layer's last tile adds its share, then the completed total plus the two biases is the layer's
  pre-activation (addition on the extended reals may be regrouped), from which the cell's output and the next layer's
  input follow; a later layer's first tile restarts the total from zero with the carried input already the new layer's.
-/
import proofs.«131363_j14688788152407_1_alg».proof.Proof.KernelSteps
import proofs.«131363_j14688788152407_1_alg».proof.Proof.KernelPayloads
import proofs.«131363_j14688788152407_1_alg».proof.Proof.KernelBlocks
import proofs.«131363_j14688788152407_1_alg».proof.Proof.LstmSpec

noncomputable section

open scoped BigOperators

namespace Cert.KernelIdeal.State

open Cert.KernelIdeal Cert.KernelIdeal.Gen Cert.KernelIdeal.Pieces Cert.KernelIdeal.Blocks Cert.KernelIdeal.Payloads
open Idealize.ShloMosaic Idealize.ShloMosaic.TcCoe Idealize.ShloMosaic.ValueIdx Idealize.SL.Sem Cert.Lstm

variable (m : (ℓ : Loc nD τ sig) → Buf (Elt Ideal) ℓ) (c : Dev nD)

/-- Layer l's input, from the argument arrays in memory. -/
abbrev inp (l : ℕ) : Fin 2048 → EReal := inputA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l
/-- Layer l's output. -/
abbrev out (l : ℕ) : Fin 2048 → EReal := outputA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l
/-- Layer l's gate pre-activations. -/
abbrev gat (l : ℕ) : Fin 8192 → EReal := gatesA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l
/-- Layer l's running total after n tiles. -/
abbrev part (l : ℕ) (j : Fin 8192) (n : ℕ) : EReal := partialA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l j n

/-- The tile a point reads of the carried input row: columns 256 (t % 8) onwards. -/
theorem tileRow_apply (t : Fin cfg0.N) (X : Vec Ideal S1x2048 .f32) (u : Fin 1) (q : Fin 256) :
    tileRow (grid0.coords t) X (ix2 u q) = X (ix2 (0 : Fin 1) (col (tileOf t) q)) := by
  show X ((Rect.unit (s := S1x2048) (k0_off1 (grid0.coords t)) S1x256.size (k0_off1_inb (grid0.coords t))).idx (ix2 u q)) = _
  refine congrArg X (funext fun a => Fin.ext ?_)
  have hu : u.val = 0 := by omega
  match a with
  | ⟨0, _⟩ => show k0_off1 (grid0.coords t) 0 + 1 * u.val = 0; rw [(pos_tile t).1]; omega
  | ⟨1, _⟩ => show k0_off1 (grid0.coords t) 1 + 1 * q.val = t.val % 8 * 256 + q.val; rw [(pos_tile t).2]; omega

theorem lay_layerOf (t : Fin cfg0.N) : lay (t.val / 8) = layerOf t :=
  Fin.ext (by show t.val / 8 % 8 = t.val / 8; have := t.isLt; have hN : cfg0.N = 64 := N_0; omega)

/-- One tile's update of the accumulator, against the arrays: the accumulator found plus the tile's share. -/
theorem update_apply (t : Fin cfg0.N) (X : Vec Ideal S1x2048 .f32) (A : Vec Ideal S1x8192 .f32) (xs : Fin 2048 → EReal)
    (hX : ∀ (u : Fin 1) (p : Fin 2048), X (ix2 u p) = xs p) (u : Fin 1) (j : Fin 8192) :
    k0_pay5 (F := Ideal) (tileRow (grid0.coords t) X) (iblk m c 5 t) (iblk m c 1 t) (iblk m c 2 t) A (ix2 u j)
      = A (ix2 u j) + tile xs (rOf (m ((c : Thread nD τ).loc main_arg5)) (layerOf t))
          (wOf (m ((c : Thread nD τ).loc main_arg1)) (layerOf t)) (wOf (m ((c : Thread nD τ).loc main_arg2)) (layerOf t)) j
          (tileOf t) := by
  obtain rfl : u = 0 := Subsingleton.elim _ _
  refine (tile_apply (tileRow (grid0.coords t) X) (iblk m c 5 t) (iblk m c 1 t) (iblk m c 2 t) A j).trans ?_
  unfold tile
  refine congrArg (A (ix2 (0 : Fin 1) j) + ·)
    (congrArg₂ (· + ·) (Finset.sum_congr rfl fun q _ => ?_) (Finset.sum_congr rfl fun q _ => ?_))
  · refine congrArg₂ (· * ·) ((tileRow_apply t X 0 q).trans (hX 0 _)) ?_
    exact (w_block m c t 0 j q).trans (congrFun (V_main_arg1 m c) _)
  · refine congrArg₂ (· * ·) ((h_block m c t 0 0 q).trans (congrFun (V_main_arg5 m c) _)) ?_
    exact (u_block m c t 0 j q).trans (congrFun (V_main_arg2 m c) _)

/-- So a point that finds layer l's input and layer l's total over k tiles leaves the total over k + 1 tiles. -/
theorem total_step (t : Fin cfg0.N) (X : Vec Ideal S1x2048 .f32) (A : Vec Ideal S1x8192 .f32) (l k : ℕ)
    (hl : l = t.val / 8) (hk : k = t.val % 8)
    (hX : ∀ (u : Fin 1) (p : Fin 2048), X (ix2 u p) = inp m c l p)
    (hA : ∀ (u : Fin 1) (j : Fin 8192), A (ix2 u j) = part m c l j k) (u : Fin 1) (j : Fin 8192) :
    k0_pay5 (F := Ideal) (tileRow (grid0.coords t) X) (iblk m c 5 t) (iblk m c 1 t) (iblk m c 2 t) A (ix2 u j)
      = part m c l j (k + 1) := by
  subst hl hk
  have hk8 : t.val % 8 < 8 := Nat.mod_lt _ (by decide)
  rw [update_apply m c t X A _ hX u j, hA u j]
  show _ = partialGate _ _ _ _ _ _ _ (t.val / 8) j (t.val % 8 + 1)
  rw [partialGate_succ _ _ _ _ _ _ _ (t.val / 8) j (t.val % 8) hk8, lay_layerOf]
  rfl

/-- A completed total, with the layer's biases and cell row, gives the layer's output. -/
theorem cell_step (t : Fin cfg0.N) (A : Vec Ideal S1x8192 .f32) (l : ℕ) (hl : l = t.val / 8)
    (hA : ∀ (u : Fin 1) (j : Fin 8192), A (ix2 u j) = part m c l j 8) (u : Fin 1) (p : Fin 2048) :
    k0_pay1 (F := Ideal) A (iblk m c 3 t) (iblk m c 4 t) (iblk m c 6 t) (ix2 u p) = out m c l p := by
  obtain rfl : u = 0 := Subsingleton.elim _ _
  subst hl
  refine (cell_apply A (iblk m c 3 t) (iblk m c 4 t) (iblk m c 6 t) p).trans ?_
  have hg : (fun j : Fin 8192 => A (ix2 (0 : Fin 1) j) + (iblk m c 3 t : Vec Ideal S1x1x8192 .f32) (ix3 (0 : Fin 1) (0 : Fin 1) j)
        + (iblk m c 4 t : Vec Ideal S1x1x8192 .f32) (ix3 (0 : Fin 1) (0 : Fin 1) j)) = gat m c (t.val / 8) := by
    funext j
    rw [hA 0 j, b_block m c t 0 0 j, d_block m c t 0 0 j, b_row m c (layerOf t) 0 j, d_row m c (layerOf t) 0 j,
      ← lay_layerOf]
    exact partialGate_eight _ _ _ _ _ _ _ (t.val / 8) j
  have hc : (fun q : Fin 2048 => (iblk m c 6 t : Vec Ideal S1x1x2048 .f32) (ix3 (0 : Fin 1) (0 : Fin 1) q))
      = rOf (m ((c : Thread nD τ).loc main_arg6)) (lay (t.val / 8)) := by
    funext q
    rw [c_block m c t 0 0 q, lay_layerOf]
    exact congrFun (V_main_arg6 m c) _
  rw [hg, hc]
  rfl

/-- What holds after point n. -/
structure Holds (n : ℕ) (h : n < cfg0.N) : Prop where
  carried : ∀ (u : Fin 1) (p : Fin 2048),
    (outsAt0 m c n h).2.1 (ix2 u p) = inp m c (if n % 8 = 7 then n / 8 + 1 else n / 8) p
  total : ∀ (u : Fin 1) (j : Fin 8192), (outsAt0 m c n h).2.2 (ix2 u j) = part m c (n / 8) j (n % 8 + 1)
  put : n % 8 = 7 → ∀ (u : Fin 1) (p : Fin 2048), (outsAt0 m c n h).1 (ix2 u p) = out m c (n / 8) p

/-- It holds after every point (by induction on the point's number). -/
theorem holds_at : ∀ (n : ℕ) (t : Fin cfg0.N), t.val = n → Holds m c t.val t.isLt
  | 0, t, ht => by
    obtain ⟨e1, e2⟩ := Steps.first m c t (by omega) (by omega) (by omega)
    have hX : ∀ (u : Fin 1) (p : Fin 2048), k0_pay3 (F := Ideal) (iblk m c 0 t) (ix2 u p) = inp m c (t.val / 8) p := by
      intro u p
      rw [copy_eq, show t.val / 8 = 0 by omega]
      exact (x_block m c t u p).trans (x_row m c 0 p)
    have h7 : ¬t.val % 8 = 7 := by omega
    refine ⟨fun u p => ?_, fun u j => ?_, fun h => absurd h h7⟩
    · rw [e1, if_neg h7]; exact hX u p
    · rw [e2]
      have hk : (0 : ℕ) = t.val % 8 := by omega
      have := total_step m c t _ _ (t.val / 8) 0 rfl hk hX (fun u j => zero_apply _) u j
      rw [this, ← hk]
  | n + 1, t, ht => by
    have hN : cfg0.N = 64 := N_0
    have hlt := t.isLt
    have ih : Holds m c (t.val - 1) (Nat.lt_of_le_of_lt (Nat.sub_le _ _) t.isLt) :=
      holds_at n ⟨t.val - 1, Nat.lt_of_le_of_lt (Nat.sub_le _ _) t.isLt⟩ (by show t.val - 1 = n; omega)
    have h0 : ¬t.val % 64 = 0 := by omega
    by_cases h1 : t.val % 8 = 0
    · -- a later layer's first tile
      have h2 : ¬t.val % 8 = 7 := by omega
      obtain ⟨e1, e2⟩ := Steps.restart m c t h0 h1 h2
      have hn7 : (t.val - 1) % 8 = 7 := by omega
      have hX : ∀ (u : Fin 1) (p : Fin 2048), (outsAt0 m c (t.val - 1) (Nat.lt_of_le_of_lt (Nat.sub_le _ _) t.isLt)).2.1 (ix2 u p) = inp m c (t.val / 8) p := by
        intro u p
        rw [ih.carried u p, if_pos hn7, show (t.val - 1) / 8 + 1 = t.val / 8 by omega]
      refine ⟨fun u p => ?_, fun u j => ?_, fun h7 => absurd h7 h2⟩
      · rw [e1, if_neg h2]; exact hX u p
      · rw [e2]
        have := total_step m c t _ _ (t.val / 8) 0 rfl h1.symm hX (fun u j => zero_apply _) u j
        rw [this, h1]
    · have hX : ∀ (u : Fin 1) (p : Fin 2048), (outsAt0 m c (t.val - 1) (Nat.lt_of_le_of_lt (Nat.sub_le _ _) t.isLt)).2.1 (ix2 u p) = inp m c (t.val / 8) p := by
        intro u p
        have hn7 : ¬(t.val - 1) % 8 = 7 := by omega
        rw [ih.carried u p, if_neg hn7, show (t.val - 1) / 8 = t.val / 8 by omega]
      have hA : ∀ (u : Fin 1) (j : Fin 8192), (outsAt0 m c (t.val - 1) (Nat.lt_of_le_of_lt (Nat.sub_le _ _) t.isLt)).2.2 (ix2 u j) = part m c (t.val / 8) j (t.val % 8) := by
        intro u j
        rw [ih.total u j, show (t.val - 1) / 8 = t.val / 8 by omega, show (t.val - 1) % 8 + 1 = t.val % 8 by omega]
      have hT := total_step m c t _ _ (t.val / 8) (t.val % 8) rfl rfl hX hA
      by_cases h2 : t.val % 8 = 7
      · -- a layer's last tile
        obtain ⟨e2, e1, e7⟩ := Steps.last m c t h0 h1 h2
        have hT8 := fun (u : Fin 1) (j : Fin 8192) =>
          (hT u j).trans (congrArg (part m c (t.val / 8) j) (show t.val % 8 + 1 = 8 by omega))
        refine ⟨fun u p => ?_, fun u j => ?_, fun _ u p => ?_⟩
        · rw [e1, if_pos h2]
          obtain rfl : u = 0 := Subsingleton.elim _ _
          rw [next_apply, cell_step m c t _ (t.val / 8) rfl hT8 0 p]
          rfl
        · rw [e2]; exact hT u j
        · rw [e7]; exact cell_step m c t _ (t.val / 8) rfl hT8 u p
      · -- a middle tile
        obtain ⟨e1, e2⟩ := Steps.middle m c t h0 h1 h2
        refine ⟨fun u p => ?_, fun u j => ?_, fun h7 => absurd h7 h2⟩
        · rw [e1, if_neg h2]; exact hX u p
        · rw [e2]; exact hT u j

/-- In particular the output block ends holding the last layer's output. -/
theorem last_put (t : Fin cfg0.N) (ht : t.val = 63) (u : Fin 1) (p : Fin 2048) :
    (outsAt0 m c t.val t.isLt).1 (ix2 u p) = out m c 7 p := by
  have := (holds_at m c 63 t ht).put (by omega) u p
  rw [this, show t.val / 8 = 7 by omega]

end Cert.KernelIdeal.State

end
-- ==== Proof.KernelValue.lean ====
/-
  What the kernel's program leaves in its result.

  The output window's block never moves (it is the whole 1 x 2048 result row) and is written back once, after the last
  grid point; by then it holds the last layer's output. So the result row after the region is the last layer's output,
  and the reshape after the region stores it as the 1 x 1 x 2048 result: the stack's value of the argument arrays.
-/
import proofs.«131363_j14688788152407_1_alg».proof.Proof.KernelState
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Result

open Cert.KernelIdeal Cert.KernelIdeal.Gen Cert.KernelIdeal.State Idealize.ShloMosaic Idealize.ShloMosaic.TcCoe
open Idealize.ShloMosaic.ValueIdx Idealize.SL.Sem Cert.Lstm
open Idealize.ShloMosaic.Pipeline (Dat)

variable (m : (ℓ : Loc nD τ sig) → Buf (Elt Ideal) ℓ) (ρ : Dev nD → PrngReg)

theorem hN : cfg0.N = 64 := N_0

/-- The last grid point. -/
abbrev tLast : Fin cfg0.N := ⟨63, by rw [hN]; decide⟩

/-- The result row after the region: the last layer's output. -/
def row (c : Dev nD) : S1x2048.Idx → EReal := fun y => out m c 7 (y 1)

/-- The output block after the last point is that row. -/
theorem block_last (c : Dev nD) : (outsAt0 m c tLast.val tLast.isLt).1 = row m c := by
  funext y
  rw [eq_ix2 y]
  exact last_put m c tLast rfl (y 0) (y 1)

/-- The one write-back, after the last point, writes that row: the block is the whole row at zero offsets. -/
theorem flushed_eq (c : Dev nD) (t : Fin cfg0.N) (hf : (cfg0.win 7).flush t = true) :
    (dats m 0 c).flushed 7 t = ((cfg0.win 7).blk t).view.read (Elt Ideal) (row m c) := by
  have h63 : t.val = 63 := by have := (flush0_7 t).mp hf; have := t.isLt; have := hN; omega
  obtain rfl : t = tLast := Fin.ext h63
  show (cfg0.win 7).cut (grid0.coords tLast) ((dats m 0 c).after 7 tLast) = _
  rw [after0_7, block_last]
  have hz' : (fun a => win0_7.index tLast a * main_v3.ty.shape.size a) = fun _ => 0 :=
    funext fun a => by fin_cases a <;> decide +kernel
  exact (Memref.read_access_unit_zero (Elt Ideal) main_v3 hz' (fun a => by rw [congrFun hz' a]; simp) (row m c)).symm

/-- So the result row after the region is the last layer's output. -/
theorem final (c : Dev nD) : (dats m 0 c).arrAt 7 cfg0.N = row m c :=
  (dats m 0 c).arrAt_eq_of_cover 7 (row m c) (flushed_eq m c) fun i =>
    ⟨tLast, (flush0_7 tLast).mpr rfl, by
      show i ∈ ((View.whole main_v3).slice (win0_7.rect tLast)).set
      rw [View.set_slice_whole, Rect.mem_set_unit]
      intro a
      have h0 : (i 0 : Nat) < 1 := (i 0).isLt
      have h1 : (i 1 : Nat) < 2048 := (i 1).isLt
      match a with
      | ⟨0, _⟩ =>
        show win0_7.index tLast 0 * win0_7.size 0 ≤ (i 0 : Nat)
          ∧ (i 0 : Nat) < win0_7.index tLast 0 * win0_7.size 0 + win0_7.xsize (grid0.coords tLast) 0
        rw [show win0_7.index tLast 0 * win0_7.size 0 = 0 from by decide +kernel,
          show win0_7.xsize (grid0.coords tLast) 0 = 1 from by decide +kernel]
        omega
      | ⟨1, _⟩ =>
        show win0_7.index tLast 1 * win0_7.size 1 ≤ (i 1 : Nat)
          ∧ (i 1 : Nat) < win0_7.index tLast 1 * win0_7.size 1 + win0_7.xsize (grid0.coords tLast) 1
        rw [show win0_7.index tLast 1 * win0_7.size 1 = 0 from by decide +kernel,
          show win0_7.xsize (grid0.coords tLast) 1 = 2048 from by decide +kernel]
        omega⟩

/-- The stack's value of the argument arrays in memory, as the 1 x 1 x 2048 result. -/
def value (c : Dev nD) : S1x1x2048.Idx → EReal := stackValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The reshape after the region stores the result row as the result. -/
theorem result_eq (c : Dev nD) :
    Pipeline.afterTail₀ cfgs (dats m) 0 (V0 m) [hostOps1] c main_v4 = value m c := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3) = row m c :=
    (Pipeline.withArrays_arr spec0 launch0.win.arr_inj c (V0 m c) (fun w => (dats m 0 c).arrAt w cfg0.N) 7).trans
      (final m c)
  funext y
  rw [eq_ix3 y]
  show shapeCast S1x1x2048 (Pipeline.withArrays (cfgs 0).spec c (V0 m c) (fun w => (dats m 0 c).arrAt w (cfgs 0).N)
      (Proc.devRef .tc main_v3)) shapeCasts_S1x2048_S1x1x2048 (ix3 (y 0) (y 1) (y 2)) = _
  rw [e]
  exact shapeCast_ab_1ab_apply (row m c) shapeCasts_S1x2048_S1x1x2048 (y 0) (y 1) (y 2)

/-- Every weakly fair execution of the program ends with the result at the stack's value of the argument arrays, and
    the argument arrays unchanged. -/
theorem run : θ_run defs (onTc (τ := τ) (main (F := Ideal))) ⟨m, fun _ => 0, ρ⟩ (fun r => ∀ c : Dev nD,
      r.2.mem ((c.tc : Thread nD τ).loc main_v4) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v4 (Pipeline.mem_restRefs_of main_v4 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Result

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.ReferenceValue.lean ====
/-
  What the plain program computes, layer by layer, on the extended reals.

  The plain program slices layer l's slab out of each table, transposes the two weight matrices, and forms the gate
  pre-activations as (x . W^T + b) + h . U^T + d; it spells the logistic function as 1 / (1 + exp (-z)), which on the
  extended reals is the logistic function at every point (both ends included), and combines the four quarters of the
  pre-activation into the cell's output. Layer l + 1 is fed tanh of layer l's output. Reading each of these array
  operations at an entry (a slice shifts an index, a reshape keeps the row-major position, a transpose swaps the two
  coordinates, a matrix product is a sum over the contracted coordinate) gives the layers' pre-activations, and from
  the last one the result, as the specification states them.
-/
import proofs.«131363_j14688788152407_1_alg».proof.Proof.Gen.ReferenceIdeal.Run
import proofs.«131363_j14688788152407_1_alg».proof.Proof.LibPlainDot
import proofs.«131363_j14688788152407_1_alg».proof.Proof.LstmSpec
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.Value Idealize.ShloMosaic Idealize.ShloMosaic.ValueIdx
open Idealize.ShloMosaic.StableHlo Cert.Lstm

/-! ## One layer's operations read at an entry -/

section Terms

variable (A0 : S2048.Idx → Ideal .f32) (A1 A2 : S8x8192x2048.Idx → Ideal .f32) (A3 A4 : S8x8192.Idx → Ideal .f32)
  (A5 A6 : S8x1x2048.Idx → Ideal .f32)

/-- Row l of a recurrent or cell table, sliced out and flattened to one row. -/
theorem row_apply (A : S8x1x2048.Idx → Ideal .f32) (l : Fin 8) (o3 : Fin 3 → ℕ) (ho3 : o3 = ![l.val, 0, 0])
    (s5 : S8x1x2048.Slices o3 S1x1x2048) (u : Fin 1) (p : Fin 2048) :
    (shapeCast _ (extractStridedSlice S1x1x2048 o3 A s5) shapeCasts_S1x1x2048_S1x2048) (ix2 u p) = rOf A l p := by
  subst ho3
  obtain rfl : u = 0 := Subsingleton.elim _ _
  refine (shapeCast_1ab_ab_apply _ _ (0 : Fin 1) p).trans ?_
  refine extractStridedSlice_apply _ A s5 _ _ fun a => ?_
  match a with
  | ⟨0, _⟩ => show l.val = l.val + 0; omega
  | ⟨1, _⟩ => rfl
  | ⟨2, _⟩ => show p.val = 0 + p.val; omega

/-- Layer l's gate pre-activation j from the layer's input row: the two products and the two biases. -/
theorem gates_apply (xin : FVec Ideal S1x2048 .f32) (l : Fin 8) (o3 : Fin 3 → ℕ) (ho3 : o3 = ![l.val, 0, 0])
    (o2 : Fin 2 → ℕ) (ho2 : o2 = ![l.val, 0]) (s1 : S8x8192x2048.Slices o3 S1x8192x2048)
    (s5 : S8x1x2048.Slices o3 S1x1x2048) (s3 : S8x8192.Slices o2 S1x8192) (u : Fin 1) (j : Fin 8192) :
    (addf (addf (addf (Host.dotGeneral dot_S1x2048_S2048x8192_S1x8192_1_0_0_1_n_n none xin (transpose S2048x8192 [1, 0] (shapeCast _ (extractStridedSlice S1x8192x2048 o3 A1 s1) shapeCasts_S1x8192x2048_S8192x2048) transposes_S8192x2048_S2048x8192_1_0)) (broadcastInDim S1x8192 ![1] bcast_S8192_S1x8192_1 (shapeCast _ (extractStridedSlice S1x8192 o2 A3 s3) shapeCasts_S1x8192_S8192))) (Host.dotGeneral dot_S1x2048_S2048x8192_S1x8192_1_0_0_1_n_n none (shapeCast _ (extractStridedSlice S1x1x2048 o3 A5 s5) shapeCasts_S1x1x2048_S1x2048) (transpose S2048x8192 [1, 0] (shapeCast _ (extractStridedSlice S1x8192x2048 o3 A2 s1) shapeCasts_S1x8192x2048_S8192x2048) transposes_S8192x2048_S2048x8192_1_0))) (broadcastInDim S1x8192 ![1] bcast_S8192_S1x8192_1 (shapeCast _ (extractStridedSlice S1x8192 o2 A4 s3) shapeCasts_S1x8192_S8192))) (ix2 u j)
      = gate (fun p => xin (ix2 (0 : Fin 1) p)) (rOf A5 l) (wOf A1 l) (wOf A2 l) (bOf A3 l) (bOf A4 l) j := by
  have hr : ∀ p : Fin 2048, (shapeCast _ (extractStridedSlice S1x1x2048 o3 A5 s5) shapeCasts_S1x1x2048_S1x2048) (ix2 (0 : Fin 1) p) = rOf A5 l p :=
    fun p => row_apply A5 l o3 ho3 s5 (0 : Fin 1) p
  subst ho3 ho2
  obtain rfl : u = 0 := Subsingleton.elim _ _
  have hw : ∀ (A : S8x8192x2048.Idx → Ideal .f32) (p : Fin 2048),
      (transpose S2048x8192 [1, 0] (shapeCast _ (extractStridedSlice S1x8192x2048 ![l.val, 0, 0] A s1) shapeCasts_S1x8192x2048_S8192x2048) transposes_S8192x2048_S2048x8192_1_0) (ix2 p j) = wOf A l j p := by
    intro A p
    refine (transpose_ix2_apply _ _ p j).trans ((shapeCast_1ab_ab_apply _ _ j p).trans ?_)
    refine extractStridedSlice_apply _ A s1 _ _ fun a => ?_
    match a with
    | ⟨0, _⟩ => show l.val = l.val + 0; omega
    | ⟨1, _⟩ => show j.val = 0 + j.val; omega
    | ⟨2, _⟩ => show p.val = 0 + p.val; omega
  have hb : ∀ (A : S8x8192.Idx → Ideal .f32), (broadcastInDim S1x8192 ![1] bcast_S8192_S1x8192_1 (shapeCast _ (extractStridedSlice S1x8192 ![l.val, 0] A s3) shapeCasts_S1x8192_S8192)) (ix2 (0 : Fin 1) j) = bOf A l j := by
    intro A
    refine (broadcastInDim_apply _ _ _ _ (ix1 j) fun a => ?_).trans ((shapeCast_1a_a_apply _ _ j).trans ?_)
    · match a with
      | ⟨0, _⟩ => exact (if_neg (show ¬(8192 : ℕ) = 1 by decide)).symm
    · refine extractStridedSlice_apply _ A s3 _ _ fun a => ?_
      match a with
      | ⟨0, _⟩ => show l.val = l.val + 0; omega
      | ⟨1, _⟩ => show j.val = 0 + j.val; omega
  rw [addf_apply, addf_apply, addf_apply]
  unfold gate
  refine congrArg₂ (· + ·) (congrArg₂ (· + ·) (congrArg₂ (· + ·) ?_ (hb A3)) ?_) (hb A4)
  · refine (hostDotGeneral_plain_apply none _ _ (0 : Fin 1) j).trans (Finset.sum_congr rfl fun p _ => ?_)
    exact congrArg (xin (ix2 (0 : Fin 1) p) * ·) (hw A1 p)
  · refine (hostDotGeneral_plain_apply none _ _ (0 : Fin 1) j).trans (Finset.sum_congr rfl fun p _ => ?_)
    exact congrArg₂ (· * ·) (hr p) (hw A2 p)

/-- The logistic function as the plain program spells it, 1 / (1 + exp (-z)), of entry q of a quarter of a row. -/
theorem logistic_apply (g : FVec Ideal S1x8192 .f32) (r : Fin 4) (off : Fin 2 → ℕ) (hoff : off = ![0, r.val * 2048])
    (hsl : S1x8192.Slices off S1x2048) (u : Fin 1) (q : Fin 2048) :
    (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 off g hsl))))) (ix2 u q) = Ideal.logistic (g (ix2 u (quarter r q))) := by
  show Ideal.div (Ideal.ofBits .f32 0x3F800000#32)
      (Ideal.ofBits .f32 0x3F800000#32 + Ideal.exp (-(extractStridedSlice S1x2048 off g hsl (ix2 u q)))) = _
  rw [quarter_apply r off hoff g hsl u q, ofBits_one]
  rfl

/-- The cell's output at q from a row g of gate pre-activations and a cell row cc. -/
theorem cell_apply (g : FVec Ideal S1x8192 .f32) (cc : FVec Ideal S1x2048 .f32) (u : Fin 1) (q : Fin 2048) :
    (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 6144] g slices_S1x8192_S1x2048_0_6144))))) (Host.tanh (addf (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 2048] g slices_S1x8192_S1x2048_0_2048))))) cc) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 0] g slices_S1x8192_S1x2048_0_0))))) (Host.tanh (extractStridedSlice S1x2048 ![0, 4096] g slices_S1x8192_S1x2048_0_4096)))))) (ix2 u q) = cellOut (fun j => g (ix2 u j)) (fun p => cc (ix2 u p)) q := by
  have ht : ∀ (v : FVec Ideal S1x2048 .f32) (i : S1x2048.Idx), Host.tanh v i = Ideal.tanh (v i) := fun _ _ => rfl
  rw [mulf_apply, ht, addf_apply, mulf_apply, mulf_apply, ht,
    logistic_apply g 3 ![0, 6144] rfl, logistic_apply g 1 ![0, 2048] rfl, logistic_apply g 0 ![0, 0] rfl,
    quarter_apply 2 ![0, 4096] rfl]
  rfl

/-- The first layer's pre-activations: its input row is the input vector. -/
theorem first_layer (u : Fin 1) (j : Fin 8192) :
    (addf (addf (addf (Host.dotGeneral dot_S1x2048_S2048x8192_S1x8192_1_0_0_1_n_n none (shapeCast _ A0 shapeCasts_S2048_S1x2048) (transpose S2048x8192 [1, 0] (shapeCast _ (extractStridedSlice S1x8192x2048 ![0, 0, 0] A1 slices_S8x8192x2048_S1x8192x2048_0_0_0) shapeCasts_S1x8192x2048_S8192x2048) transposes_S8192x2048_S2048x8192_1_0)) (broadcastInDim S1x8192 ![1] bcast_S8192_S1x8192_1 (shapeCast _ (extractStridedSlice S1x8192 ![0, 0] A3 slices_S8x8192_S1x8192_0_0) shapeCasts_S1x8192_S8192))) (Host.dotGeneral dot_S1x2048_S2048x8192_S1x8192_1_0_0_1_n_n none (shapeCast _ (extractStridedSlice S1x1x2048 ![0, 0, 0] A5 slices_S8x1x2048_S1x1x2048_0_0_0) shapeCasts_S1x1x2048_S1x2048) (transpose S2048x8192 [1, 0] (shapeCast _ (extractStridedSlice S1x8192x2048 ![0, 0, 0] A2 slices_S8x8192x2048_S1x8192x2048_0_0_0) shapeCasts_S1x8192x2048_S8192x2048) transposes_S8192x2048_S2048x8192_1_0))) (broadcastInDim S1x8192 ![1] bcast_S8192_S1x8192_1 (shapeCast _ (extractStridedSlice S1x8192 ![0, 0] A4 slices_S8x8192_S1x8192_0_0) shapeCasts_S1x8192_S8192))) (ix2 u j)
      = gatesA A0 A1 A2 A3 A4 A5 A6 0 j := by
  refine (gates_apply A1 A2 A3 A4 A5 (shapeCast _ A0 shapeCasts_S2048_S1x2048) (lay 0) ![0, 0, 0] rfl ![0, 0] rfl
    slices_S8x8192x2048_S1x8192x2048_0_0_0 slices_S8x1x2048_S1x1x2048_0_0_0 slices_S8x8192_S1x8192_0_0 u j).trans ?_
  have hx : (fun p : Fin 2048 => shapeCast S1x2048 A0 shapeCasts_S2048_S1x2048 (ix2 (0 : Fin 1) p)) = xOf A0 :=
    funext fun p => shapeCast_a_1a_apply _ _ (0 : Fin 1) p
  rw [hx]
  rfl

/-- From one layer's pre-activations to the next layer's: the cell, tanh, and the next layer's products and biases. -/
theorem layer_step (gprev : FVec Ideal S1x8192 .f32) (n : ℕ) (hn : n + 1 < 8)
    (hprev : ∀ (u : Fin 1) (j : Fin 8192), gprev (ix2 u j) = gatesA A0 A1 A2 A3 A4 A5 A6 n j)
    (o6 : Fin 3 → ℕ) (ho6 : o6 = ![(lay n).val, 0, 0]) (s6 : S8x1x2048.Slices o6 S1x1x2048)
    (o3 : Fin 3 → ℕ) (ho3 : o3 = ![(lay (n + 1)).val, 0, 0]) (o2 : Fin 2 → ℕ) (ho2 : o2 = ![(lay (n + 1)).val, 0])
    (s1 : S8x8192x2048.Slices o3 S1x8192x2048) (s5 : S8x1x2048.Slices o3 S1x1x2048) (s3 : S8x8192.Slices o2 S1x8192)
    (u : Fin 1) (j : Fin 8192) :
    (addf (addf (addf (Host.dotGeneral dot_S1x2048_S2048x8192_S1x8192_1_0_0_1_n_n none (Host.tanh (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 6144] gprev slices_S1x8192_S1x2048_0_6144))))) (Host.tanh (addf (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 2048] gprev slices_S1x8192_S1x2048_0_2048))))) (shapeCast _ (extractStridedSlice S1x1x2048 o6 A6 s6) shapeCasts_S1x1x2048_S1x2048)) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 0] gprev slices_S1x8192_S1x2048_0_0))))) (Host.tanh (extractStridedSlice S1x2048 ![0, 4096] gprev slices_S1x8192_S1x2048_0_4096))))))) (transpose S2048x8192 [1, 0] (shapeCast _ (extractStridedSlice S1x8192x2048 o3 A1 s1) shapeCasts_S1x8192x2048_S8192x2048) transposes_S8192x2048_S2048x8192_1_0)) (broadcastInDim S1x8192 ![1] bcast_S8192_S1x8192_1 (shapeCast _ (extractStridedSlice S1x8192 o2 A3 s3) shapeCasts_S1x8192_S8192))) (Host.dotGeneral dot_S1x2048_S2048x8192_S1x8192_1_0_0_1_n_n none (shapeCast _ (extractStridedSlice S1x1x2048 o3 A5 s5) shapeCasts_S1x1x2048_S1x2048) (transpose S2048x8192 [1, 0] (shapeCast _ (extractStridedSlice S1x8192x2048 o3 A2 s1) shapeCasts_S1x8192x2048_S8192x2048) transposes_S8192x2048_S2048x8192_1_0))) (broadcastInDim S1x8192 ![1] bcast_S8192_S1x8192_1 (shapeCast _ (extractStridedSlice S1x8192 o2 A4 s3) shapeCasts_S1x8192_S8192))) (ix2 u j)
      = gatesA A0 A1 A2 A3 A4 A5 A6 (n + 1) j := by
  refine (gates_apply A1 A2 A3 A4 A5 _ (lay (n + 1)) o3 ho3 o2 ho2 s1 s5 s3 u j).trans ?_
  have hin : (fun p : Fin 2048 => (Host.tanh (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 6144] gprev slices_S1x8192_S1x2048_0_6144))))) (Host.tanh (addf (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 2048] gprev slices_S1x8192_S1x2048_0_2048))))) (shapeCast _ (extractStridedSlice S1x1x2048 o6 A6 s6) shapeCasts_S1x1x2048_S1x2048)) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 0] gprev slices_S1x8192_S1x2048_0_0))))) (Host.tanh (extractStridedSlice S1x2048 ![0, 4096] gprev slices_S1x8192_S1x2048_0_4096))))))) (ix2 (0 : Fin 1) p))
      = inputA A0 A1 A2 A3 A4 A5 A6 (n + 1) := by
    funext p
    show Ideal.tanh ((mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 6144] gprev slices_S1x8192_S1x2048_0_6144))))) (Host.tanh (addf (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 2048] gprev slices_S1x8192_S1x2048_0_2048))))) (shapeCast _ (extractStridedSlice S1x1x2048 o6 A6 s6) shapeCasts_S1x1x2048_S1x2048)) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 0] gprev slices_S1x8192_S1x2048_0_0))))) (Host.tanh (extractStridedSlice S1x2048 ![0, 4096] gprev slices_S1x8192_S1x2048_0_4096)))))) (ix2 (0 : Fin 1) p)) = _
    rw [cell_apply]
    have h1 : (fun j => gprev (ix2 (0 : Fin 1) j)) = gatesA A0 A1 A2 A3 A4 A5 A6 n := funext fun j => hprev 0 j
    have h2 : (fun p => (shapeCast _ (extractStridedSlice S1x1x2048 o6 A6 s6) shapeCasts_S1x1x2048_S1x2048) (ix2 (0 : Fin 1) p)) = rOf A6 (lay n) :=
      funext fun p => row_apply A6 (lay n) o6 ho6 s6 (0 : Fin 1) p
    rw [h1, h2]
    rfl
  rw [hin]
  rfl

/-- The result: the last layer's output, stored as a 1 x 1 x 2048 array. -/
theorem result_of (g7 : FVec Ideal S1x8192 .f32) (h7 : ∀ (u : Fin 1) (j : Fin 8192), g7 (ix2 u j) = gatesA A0 A1 A2 A3 A4 A5 A6 7 j)
    (u v : Fin 1) (q : Fin 2048) :
    shapeCast _ (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 6144] g7 slices_S1x8192_S1x2048_0_6144))))) (Host.tanh (addf (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 2048] g7 slices_S1x8192_S1x2048_0_2048))))) (shapeCast _ (extractStridedSlice S1x1x2048 ![7, 0, 0] A6 slices_S8x1x2048_S1x1x2048_7_0_0) shapeCasts_S1x1x2048_S1x2048)) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 0] g7 slices_S1x8192_S1x2048_0_0))))) (Host.tanh (extractStridedSlice S1x2048 ![0, 4096] g7 slices_S1x8192_S1x2048_0_4096)))))) shapeCasts_S1x2048_S1x1x2048 (ix3 u v q)
      = stackValue A0 A1 A2 A3 A4 A5 A6 (ix3 u v q) := by
  refine (shapeCast_ab_1ab_apply _ _ u v q).trans ?_
  rw [cell_apply]
  have h1 : (fun j => g7 (ix2 v j)) = gatesA A0 A1 A2 A3 A4 A5 A6 7 := funext fun j => h7 v j
  have h2 : (fun p => (shapeCast _ (extractStridedSlice S1x1x2048 ![7, 0, 0] A6 slices_S8x1x2048_S1x1x2048_7_0_0) shapeCasts_S1x1x2048_S1x2048) (ix2 v p)) = rOf A6 (lay 7) :=
    funext fun p => row_apply A6 (lay 7) ![7, 0, 0] rfl slices_S8x1x2048_S1x1x2048_7_0_0 v p
  rw [h1, h2]
  rfl

end Terms

/-! ## The eight layers of the program's run -/

section Layers

variable (V0 : Valuation τ sig (Elt Ideal))

/-- Layer l's gate pre-activations as the specification computes them from the argument arrays. -/
abbrev specGates (l : ℕ) : Fin 8192 → EReal :=
  gatesA (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) l

theorem layer0 (u : Fin 1) (j : Fin 8192) : res_main_v21 V0 (ix2 u j) = specGates V0 0 j := by
  unfold res_main_v21
  exact first_layer (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) u j

theorem layer1 (u : Fin 1) (j : Fin 8192) : res_main_v71 V0 (ix2 u j) = specGates V0 1 j := by
  unfold res_main_v71
  exact layer_step (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v21 V0) 0 (by decide) (layer0 V0)
    ![0, 0, 0] rfl slices_S8x1x2048_S1x1x2048_0_0_0
    ![1, 0, 0] rfl ![1, 0] rfl slices_S8x8192x2048_S1x8192x2048_1_0_0 slices_S8x1x2048_S1x1x2048_1_0_0
    slices_S8x8192_S1x8192_1_0 u j

theorem layer2 (u : Fin 1) (j : Fin 8192) : res_main_v121 V0 (ix2 u j) = specGates V0 2 j := by
  unfold res_main_v121
  exact layer_step (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v71 V0) 1 (by decide) (layer1 V0)
    ![1, 0, 0] rfl slices_S8x1x2048_S1x1x2048_1_0_0
    ![2, 0, 0] rfl ![2, 0] rfl slices_S8x8192x2048_S1x8192x2048_2_0_0 slices_S8x1x2048_S1x1x2048_2_0_0
    slices_S8x8192_S1x8192_2_0 u j

theorem layer3 (u : Fin 1) (j : Fin 8192) : res_main_v171 V0 (ix2 u j) = specGates V0 3 j := by
  unfold res_main_v171
  exact layer_step (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v121 V0) 2 (by decide) (layer2 V0)
    ![2, 0, 0] rfl slices_S8x1x2048_S1x1x2048_2_0_0
    ![3, 0, 0] rfl ![3, 0] rfl slices_S8x8192x2048_S1x8192x2048_3_0_0 slices_S8x1x2048_S1x1x2048_3_0_0
    slices_S8x8192_S1x8192_3_0 u j

theorem layer4 (u : Fin 1) (j : Fin 8192) : res_main_v221 V0 (ix2 u j) = specGates V0 4 j := by
  unfold res_main_v221
  exact layer_step (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v171 V0) 3 (by decide) (layer3 V0)
    ![3, 0, 0] rfl slices_S8x1x2048_S1x1x2048_3_0_0
    ![4, 0, 0] rfl ![4, 0] rfl slices_S8x8192x2048_S1x8192x2048_4_0_0 slices_S8x1x2048_S1x1x2048_4_0_0
    slices_S8x8192_S1x8192_4_0 u j

theorem layer5 (u : Fin 1) (j : Fin 8192) : res_main_v271 V0 (ix2 u j) = specGates V0 5 j := by
  unfold res_main_v271
  exact layer_step (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v221 V0) 4 (by decide) (layer4 V0)
    ![4, 0, 0] rfl slices_S8x1x2048_S1x1x2048_4_0_0
    ![5, 0, 0] rfl ![5, 0] rfl slices_S8x8192x2048_S1x8192x2048_5_0_0 slices_S8x1x2048_S1x1x2048_5_0_0
    slices_S8x8192_S1x8192_5_0 u j

theorem layer6 (u : Fin 1) (j : Fin 8192) : res_main_v321 V0 (ix2 u j) = specGates V0 6 j := by
  unfold res_main_v321
  exact layer_step (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v271 V0) 5 (by decide) (layer5 V0)
    ![5, 0, 0] rfl slices_S8x1x2048_S1x1x2048_5_0_0
    ![6, 0, 0] rfl ![6, 0] rfl slices_S8x8192x2048_S1x8192x2048_6_0_0 slices_S8x1x2048_S1x1x2048_6_0_0
    slices_S8x8192_S1x8192_6_0 u j

theorem layer7 (u : Fin 1) (j : Fin 8192) : res_main_v371 V0 (ix2 u j) = specGates V0 7 j := by
  unfold res_main_v371
  exact layer_step (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v321 V0) 6 (by decide) (layer6 V0)
    ![6, 0, 0] rfl slices_S8x1x2048_S1x1x2048_6_0_0
    ![7, 0, 0] rfl ![7, 0] rfl slices_S8x8192x2048_S1x8192x2048_7_0_0 slices_S8x1x2048_S1x1x2048_7_0_0
    slices_S8x8192_S1x8192_7_0 u j

/-- The program's result term is the stack's value of the argument arrays. -/
theorem result_apply :
    (shapeCast _ (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 6144] (res_main_v371 V0) slices_S1x8192_S1x2048_0_6144))))) (Host.tanh (addf (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 2048] (res_main_v371 V0) slices_S1x8192_S1x2048_0_2048))))) (shapeCast _ (extractStridedSlice S1x1x2048 ![7, 0, 0] (V0 (Proc.devRef .tc main_arg6)) slices_S8x1x2048_S1x1x2048_7_0_0) shapeCasts_S1x1x2048_S1x2048)) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 0] (res_main_v371 V0) slices_S1x8192_S1x2048_0_0))))) (Host.tanh (extractStridedSlice S1x2048 ![0, 4096] (res_main_v371 V0) slices_S1x8192_S1x2048_0_4096)))))) shapeCasts_S1x2048_S1x1x2048 : S1x1x2048.Idx → Ideal .f32)
      = stackValue (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  funext fun y => by
    rw [eq_ix3 y]
    exact result_of (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (res_main_v371 V0) (layer7 V0) (y 0) (y 1) (y 2)

end Layers

end Cert.ReferenceIdeal.RefValue

end
-- ==== Proof.lean ====
/-
  A stack of eight LSTM cells on one input vector: the tiled kernel against the plain reference.

  The kernel walks a grid of 64 points, eight tiles of 256 contracted columns for each of the eight layers. It carries
  the layer's input row and a running total of the gate pre-activations from point to point; at a layer's last tile it
  adds the two biases, applies the cell, puts the cell's output in the one output block and replaces the carried input
  by tanh of that output. The reference computes, layer by layer, the two full matrix products, adds the biases, and
  applies the same cell. On the extended reals a sum over 2048 columns is the sum of its eight tile sums, in any
  grouping (addition there is commutative and associative), and the logistic function is 1 / (1 + exp (-x)) on both
  sides, so both programs end with the last layer's output of the same stack: `Cert.Lstm.stackValue` of the seven
  argument arrays.

  The three frames come from the generated frame run and the generated run of the reference; the kernel has no
  rewritten operation, so it is its own idealization; the value claim joins the kernel's result (the state carried
  across the grid, by induction on the point) with the reference's result term (read layer by layer).
-/
import proofs.«131363_j14688788152407_1_alg».proof.Defs
import proofs.«131363_j14688788152407_1_alg».proof.Proof.Gen.Kernel
import proofs.«131363_j14688788152407_1_alg».proof.Proof.Gen.Kernel.Skeleton
import proofs.«131363_j14688788152407_1_alg».proof.Proof.Gen.Kernel.Launch
import proofs.«131363_j14688788152407_1_alg».proof.Proof.Gen.Kernel.Points
import proofs.«131363_j14688788152407_1_alg».proof.Proof.Gen.Kernel.Frame
import proofs.«131363_j14688788152407_1_alg».proof.Proof.Gen.KernelIdeal
import proofs.«131363_j14688788152407_1_alg».proof.Proof.Gen.KernelIdeal.Skeleton
import proofs.«131363_j14688788152407_1_alg».proof.Proof.Gen.KernelIdeal.Launch
import proofs.«131363_j14688788152407_1_alg».proof.Proof.Gen.KernelIdeal.Points
import proofs.«131363_j14688788152407_1_alg».proof.Proof.Gen.KernelIdeal.Frame
import proofs.«131363_j14688788152407_1_alg».proof.Proof.Gen.ReferenceIdeal
import proofs.«131363_j14688788152407_1_alg».proof.Proof.Gen.ReferenceIdeal.Run
import proofs.«131363_j14688788152407_1_alg».proof.Proof.Gen.Pre_finite_inputs
import proofs.«131363_j14688788152407_1_alg».proof.Proof.KernelValue
import proofs.«131363_j14688788152407_1_alg».proof.Proof.ReferenceValue
import Idealize.ShloMosaic.Adequacy
import Idealize.ShloMosaic.Init

noncomputable section

namespace Cert.Proof

open Idealize.ShloMosaic Idealize.SL.Sem

/-- The word-level kernel terminates, faults nowhere and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals. -/
theorem preserves : Cert.preserves_Kernel_KernelIdeal := trivial

/-- From memories agreeing on the seven arguments both programs end with the stack's value of those arguments. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_apply (StableHlo.launchContents m' c)).trans ?_
  show Cert.Lstm.stackValue
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [(hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
